-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x133 : Shape := ⟨2, ![65536, 133]⟩
abbrev S262144x147 : Shape := ⟨2, ![262144, 147]⟩
abbrev S147x256 : Shape := ⟨2, ![147, 256]⟩
abbrev S256x256 : Shape := ⟨2, ![256, 256]⟩
abbrev S389x256 : Shape := ⟨2, ![389, 256]⟩
abbrev S256 : Shape := ⟨1, ![256]⟩
abbrev S65536x6 : Shape := ⟨2, ![65536, 6]⟩
abbrev S262144 : Shape := ⟨1, ![262144]⟩
abbrev S65536 : Shape := ⟨1, ![65536]⟩
abbrev S_ : Shape := ⟨0, ![]⟩

class Facts : Prop where
  bcast_S_S65536x133 : S_.BroadcastsInDim S65536x133 (![] : Fin 0 → Fin S65536x133.rank)
  reducesTo_S65536x133_S_d0_1 : S65536x133.ReducesTo [0, 1] S_
  h_S_ : 0 < S_.numel
  bcast_S_S262144x147 : S_.BroadcastsInDim S262144x147 (![] : Fin 0 → Fin S262144x147.rank)
  reducesTo_S262144x147_S_d0_1 : S262144x147.ReducesTo [0, 1] S_
  bcast_S_S147x256 : S_.BroadcastsInDim S147x256 (![] : Fin 0 → Fin S147x256.rank)
  reducesTo_S147x256_S_d0_1 : S147x256.ReducesTo [0, 1] S_
  bcast_S_S256x256 : S_.BroadcastsInDim S256x256 (![] : Fin 0 → Fin S256x256.rank)
  reducesTo_S256x256_S_d0_1 : S256x256.ReducesTo [0, 1] S_
  bcast_S_S389x256 : S_.BroadcastsInDim S389x256 (![] : Fin 0 → Fin S389x256.rank)
  reducesTo_S389x256_S_d0_1 : S389x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S389x256 .f32) (main_arg5 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S389x256 .f32 := Host.absf main_arg4
  let main_cst_6 : FVec F S_ .f32 := constant S_ .f32 0x7F800000#32
  let main_v20 : FVec F S389x256 .f32 := broadcastInDim S389x256 ![] bcast_S_S389x256 main_cst_6
  let main_v21 : IVec S389x256 1 := cmpf .olt main_v19 main_v20
  let main_c_7 : IVec S_ 1 := constantI S_ 1 1#1
  let main_v22 : IVec S_ 1 := (fun x v => Host.reduce IntOp.andi x v reducesTo_S389x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S65536x133 .f32) (main_arg1 : FVec F S262144x147 .f32) (main_arg2 : FVec F S147x256 .f32) (main_arg3 : FVec F S256x256 .f32) (main_arg4 : FVec F S389x256 .f32) (main_arg5 : FVec F S256 .f32) (main_arg6 : IVec S65536x6 32) (main_arg7 : IVec S262144 32) (main_arg8 : IVec S262144 32) (main_arg9 : IVec S65536 32) : IVec S_ 1 :=
  let main_v0 : FVec F S65536x133 .f32 := Host.absf main_arg0
  let main_cst : FVec F S_ .f32 := constant S_ .f32 0x7F800000#32
  let main_v1 : FVec F S65536x133 .f32 := broadcastInDim S65536x133 ![] bcast_S_S65536x133 main_cst
  let main_v2 : IVec S65536x133 1 := cmpf .olt main_v0 main_v1
  let main_c : IVec S_ 1 := constantI S_ 1 1#1
  let main_v3 : IVec S_ 1 := (fun x v => Host.reduce IntOp.andi x v reducesTo_S65536x133_S_d0_1 h_S_) main_v2 main_c
  let main_v4 : FVec F S262144x147 .f32 := Host.absf main_arg1
  let main_cst_0 : FVec F S_ .f32 := constant S_ .f32 0x7F800000#32
  let main_v5 : FVec F S262144x147 .f32 := broadcastInDim S262144x147 ![] bcast_S_S262144x147 main_cst_0
  let main_v6 : IVec S262144x147 1 := cmpf .olt main_v4 main_v5
  let main_c_1 : IVec S_ 1 := constantI S_ 1 1#1
  let main_v7 : IVec S_ 1 := (fun x v => Host.reduce IntOp.andi x v reducesTo_S262144x147_S_d0_1 h_S_) main_v6 main_c_1
  let main_v8 : IVec S_ 1 := andi main_v3 main_v7
  let main_v9 : FVec F S147x256 .f32 := Host.absf main_arg2
  let main_cst_2 : FVec F S_ .f32 := constant S_ .f32 0x7F800000#32
  let main_v10 : FVec F S147x256 .f32 := broadcastInDim S147x256 ![] bcast_S_S147x256 main_cst_2
  let main_v11 : IVec S147x256 1 := cmpf .olt main_v9 main_v10
  let main_c_3 : IVec S_ 1 := constantI S_ 1 1#1
  let main_v12 : IVec S_ 1 := (fun x v => Host.reduce IntOp.andi x v reducesTo_S147x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_v13 main_v16
-- ==== Kernel.lean ====
abbrev S65536x133 : Shape := ⟨2, ![65536, 133]⟩
abbrev S262144x147 : Shape := ⟨2, ![262144, 147]⟩
abbrev S147x256 : Shape := ⟨2, ![147, 256]⟩
abbrev S256x256 : Shape := ⟨2, ![256, 256]⟩
abbrev S389x256 : Shape := ⟨2, ![389, 256]⟩
abbrev S256 : Shape := ⟨1, ![256]⟩
abbrev S65536x6 : Shape := ⟨2, ![65536, 6]⟩
abbrev S262144 : Shape := ⟨1, ![262144]⟩
abbrev S65536 : Shape := ⟨1, ![65536]⟩
abbrev S262144x256 : Shape := ⟨2, ![262144, 256]⟩
abbrev S2048x147 : Shape := ⟨2, ![2048, 147]⟩
abbrev S2048x256 : Shape := ⟨2, ![2048, 256]⟩
abbrev S_ : Shape := ⟨0, ![]⟩
abbrev S65536x6x1 : Shape := ⟨3, ![65536, 6, 1]⟩
abbrev S65536x6x256 : Shape := ⟨3, ![65536, 6, 256]⟩
abbrev S65536x256 : Shape := ⟨2, ![65536, 256]⟩
abbrev S262144x1 : Shape := ⟨2, ![262144, 1]⟩
abbrev S4096x256 : Shape := ⟨2, ![4096, 256]⟩
abbrev S133x256 : Shape := ⟨2, ![133, 256]⟩
abbrev S1x256 : Shape := ⟨2, ![1, 256]⟩
abbrev S2048x133 : Shape := ⟨2, ![2048, 133]⟩
abbrev S65536x1 : Shape := ⟨2, ![65536, 1]⟩
abbrev S2048 : Shape := ⟨1, ![2048]⟩
abbrev S2048x1 : Shape := ⟨2, ![2048, 1]⟩

abbrev nBuf : Space → Nat
  | .hbm => 112
  | .vmem => 30
  | .smem => 0
  | _ => 0

abbrev bufTy : (tb : Table) → Fin (tcTables nBuf tb) → BufTy
  | .hbm, ⟨0, _⟩ => ⟨S65536x133, .f32⟩
  | .hbm, ⟨1, _⟩ => ⟨S262144x147, .f32⟩
  | .hbm, ⟨2, _⟩ => ⟨S147x256, .f32⟩
  | .hbm, ⟨3, _⟩ => ⟨S256x256, .f32⟩
  | .hbm, ⟨4, _⟩ => ⟨S389x256, .f32⟩
  | .hbm, ⟨5, _⟩ => ⟨S256, .f32⟩
  | .hbm, ⟨6, _⟩ => ⟨S65536x6, .i32⟩
  | .hbm, ⟨7, _⟩ => ⟨S262144, .i32⟩
  | .hbm, ⟨8, _⟩ => ⟨S262144, .i32⟩
  | .hbm, ⟨9, _⟩ => ⟨S65536, .i32⟩
  | .hbm, ⟨10, _⟩ => ⟨S262144x256, .f32⟩
  | .hbm, ⟨11, _⟩ => ⟨S262144x256, .bf16⟩
  | .hbm, ⟨12, _⟩ => ⟨S_, .i32⟩
  | .hbm, ⟨13, _⟩ => ⟨S65536x6, .i32⟩
  | .hbm, ⟨14, _⟩ => ⟨S65536x6, .i1⟩
  | .hbm, ⟨15, _⟩ => ⟨S_, .i32⟩
  | .hbm, ⟨16, _⟩ => ⟨S65536x6, .i32⟩
  | .hbm, ⟨17, _⟩ => ⟨S65536x6, .i32⟩
  | .hbm, ⟨18, _⟩ => ⟨S65536x6, .i32⟩
  | .hbm, ⟨19, _⟩ => ⟨S65536x6x1, .i32⟩
  | .hbm, ⟨20, _⟩ => ⟨S65536x6x256, .bf16⟩
  | .hbm, ⟨21, _⟩ => ⟨S65536x6x256, .f32⟩
  | .hbm, ⟨22, _⟩ => ⟨S_, .f32⟩
  | .hbm, ⟨23, _⟩ => ⟨S65536x256, .f32⟩
  | .hbm, ⟨24, _⟩ => ⟨S_, .i32⟩
  | .hbm, ⟨25, _⟩ => ⟨S262144, .i32⟩
  | .hbm, ⟨26, _⟩ => ⟨S262144, .i1⟩
  | .hbm, ⟨27, _⟩ => ⟨S_, .i32⟩
  | .hbm, ⟨28, _⟩ => ⟨S262144, .i32⟩
  | .hbm, ⟨29, _⟩ => ⟨S262144, .i32⟩
  | .hbm, ⟨30, _⟩ => ⟨S262144, .i32⟩
  | .hbm, ⟨31, _⟩ => ⟨S262144x1, .i32⟩
  | .hbm, ⟨32, _⟩ => ⟨S262144x256, .f32⟩
  | .hbm, ⟨33, _⟩ => ⟨S_, .i32⟩
  | .hbm, ⟨34, _⟩ => ⟨S262144, .i32⟩
  | .hbm, ⟨35, _⟩ => ⟨S262144, .i1⟩
  | .hbm, ⟨36, _⟩ => ⟨S_, .i32⟩
  | .hbm, ⟨37, _⟩ => ⟨S262144, .i32⟩
  | .hbm, ⟨38, _⟩ => ⟨S262144, .i32⟩
  | .hbm, ⟨39, _⟩ => ⟨S262144, .i32⟩
  | .hbm, ⟨40, _⟩ => ⟨S262144x1, .i32⟩
  | .hbm, ⟨41, _⟩ => ⟨S262144x256, .bf16⟩
  | .hbm, ⟨42, _⟩ => ⟨S262144x256, .f32⟩
  | .hbm, ⟨43, _⟩ => ⟨S262144x256, .f32⟩
  | .hbm, ⟨44, _⟩ => ⟨S262144x256, .bf16⟩
  | .hbm, ⟨45, _⟩ => ⟨S262144x256, .bf16⟩
  | .hbm, ⟨46, _⟩ => ⟨S_, .i32⟩
  | .hbm, ⟨47, _⟩ => ⟨S65536x6, .i32⟩
  | .hbm, ⟨48, _⟩ => ⟨S65536x6, .i1⟩
  | .hbm, ⟨49, _⟩ => ⟨S_, .i32⟩
  | .hbm, ⟨50, _⟩ => ⟨S65536x6, .i32⟩
  | .hbm, ⟨51, _⟩ => ⟨S65536x6, .i32⟩
  | .hbm, ⟨52, _⟩ => ⟨S65536x6, .i32⟩
  | .hbm, ⟨53, _⟩ => ⟨S65536x6x1, .i32⟩
  | .hbm, ⟨54, _⟩ => ⟨S65536x6x256, .bf16⟩
  | .hbm, ⟨55, _⟩ => ⟨S65536x6x256, .f32⟩
  | .hbm, ⟨56, _⟩ => ⟨S_, .f32⟩
  | .hbm, ⟨57, _⟩ => ⟨S65536x256, .f32⟩
  | .hbm, ⟨58, _⟩ => ⟨S_, .i32⟩
  | .hbm, ⟨59, _⟩ => ⟨S262144, .i32⟩
  | .hbm, ⟨60, _⟩ => ⟨S262144, .i1⟩
  | .hbm, ⟨61, _⟩ => ⟨S_, .i32⟩
  | .hbm, ⟨62, _⟩ => ⟨S262144, .i32⟩
  | .hbm, ⟨63, _⟩ => ⟨S262144, .i32⟩
  | .hbm, ⟨64, _⟩ => ⟨S262144, .i32⟩
  | .hbm, ⟨65, _⟩ => ⟨S262144x1, .i32⟩
  | .hbm, ⟨66, _⟩ => ⟨S262144x256, .f32⟩
  | .hbm, ⟨67, _⟩ => ⟨S_, .i32⟩
  | .hbm, ⟨68, _⟩ => ⟨S262144, .i32⟩
  | .hbm, ⟨69, _⟩ => ⟨S262144, .i1⟩
  | .hbm, ⟨70, _⟩ => ⟨S_, .i32⟩
  | .hbm, ⟨71, _⟩ => ⟨S262144, .i32⟩
  | .hbm, ⟨72, _⟩ => ⟨S262144, .i32⟩
  | .hbm, ⟨73, _⟩ => ⟨S262144, .i32⟩
  | .hbm, ⟨74, _⟩ => ⟨S262144x1, .i32⟩
  | .hbm, ⟨75, _⟩ => ⟨S262144x256, .bf16⟩
  | .hbm, ⟨76, _⟩ => ⟨S262144x256, .f32⟩
  | .hbm, ⟨77, _⟩ => ⟨S262144x256, .f32⟩
  | .hbm, ⟨78, _⟩ => ⟨S262144x256, .bf16⟩
  | .hbm, ⟨79, _⟩ => ⟨S262144x256, .bf16⟩
  | .hbm, ⟨80, _⟩ => ⟨S_, .i32⟩
  | .hbm, ⟨81, _⟩ => ⟨S65536x6, .i32⟩
  | .hbm, ⟨82, _⟩ => ⟨S65536x6, .i1⟩
  | .hbm, ⟨83, _⟩ => ⟨S_, .i32⟩
  | .hbm, ⟨84, _⟩ => ⟨S65536x6, .i32⟩
  | .hbm, ⟨85, _⟩ => ⟨S65536x6, .i32⟩
  | .hbm, ⟨86, _⟩ => ⟨S65536x6, .i32⟩
  | .hbm, ⟨87, _⟩ => ⟨S65536x6x1, .i32⟩
  | .hbm, ⟨88, _⟩ => ⟨S65536x6x256, .bf16⟩
  | .hbm, ⟨89, _⟩ => ⟨S65536x6x256, .f32⟩
  | .hbm, ⟨90, _⟩ => ⟨S_, .f32⟩
  | .hbm, ⟨91, _⟩ => ⟨S65536x256, .f32⟩
  | .hbm, ⟨92, _⟩ => ⟨S133x256, .f32⟩
  | .hbm, ⟨93, _⟩ => ⟨S256x256, .f32⟩
  | .hbm, ⟨94, _⟩ => ⟨S1x256, .f32⟩
  | .hbm, ⟨95, _⟩ => ⟨S65536x256, .f32⟩
  | .hbm, ⟨96, _⟩ => ⟨S_, .f32⟩
  | .hbm, ⟨97, _⟩ => ⟨S2048x256, .f32⟩
  | .hbm, ⟨98, _⟩ => ⟨S65536x1, .i32⟩
  | .hbm, ⟨99, _⟩ => ⟨S2048x256, .f32⟩
  | .hbm, ⟨100, _⟩ => ⟨S_, .f32⟩
  | .hbm, ⟨101, _⟩ => ⟨S65536, .f32⟩
  | .hbm, ⟨102, _⟩ => ⟨S_, .f32⟩
  | .hbm, ⟨103, _⟩ => ⟨S2048, .f32⟩
  | .hbm, ⟨104, _⟩ => ⟨S65536x1, .i32⟩
  | .hbm, ⟨105, _⟩ => ⟨S2048, .f32⟩
  | .hbm, ⟨106, _⟩ => ⟨S_, .f32⟩
  | .hbm, ⟨107, _⟩ => ⟨S2048, .f32⟩
  | .hbm, ⟨108, _⟩ => ⟨S2048, .f32⟩
  | .hbm, ⟨109, _⟩ => ⟨S2048x1, .f32⟩
  | .hbm, ⟨110, _⟩ => ⟨S2048x256, .f32⟩
  | .hbm, ⟨111, _⟩ => ⟨S2048x256, .f32⟩
  | .local _ .vmem, ⟨0, _⟩ => ⟨S2048x147, .f32⟩
  | .local _ .vmem, ⟨1, _⟩ => ⟨S2048x147, .f32⟩
  | .local _ .vmem, ⟨2, _⟩ => ⟨S147x256, .f32⟩
  | .local _ .vmem, ⟨3, _⟩ => ⟨S2048x256, .f32⟩
  | .local _ .vmem, ⟨4, _⟩ => ⟨S2048x256, .f32⟩
  | .local _ .vmem, ⟨5, _⟩ => ⟨S2048x256, .bf16⟩
  | .local _ .vmem, ⟨6, _⟩ => ⟨S2048x256, .bf16⟩
  | .local _ .vmem, ⟨7, _⟩ => ⟨S4096x256, .f32⟩
  | .local _ .vmem, ⟨8, _⟩ => ⟨S4096x256, .f32⟩
  | .local _ .vmem, ⟨9, _⟩ => ⟨S4096x256, .bf16⟩
  | .local _ .vmem, ⟨10, _⟩ => ⟨S4096x256, .bf16⟩
  | .local _ .vmem, ⟨11, _⟩ => ⟨S256x256, .f32⟩
  | .local _ .vmem, ⟨12, _⟩ => ⟨S4096x256, .bf16⟩
  | .local _ .vmem, ⟨13, _⟩ => ⟨S4096x256, .bf16⟩
  | .local _ .vmem, ⟨14, _⟩ => ⟨S4096x256, .f32⟩
  | .local _ .vmem, ⟨15, _⟩ => ⟨S4096x256, .f32⟩
  | .local _ .vmem, ⟨16, _⟩ => ⟨S4096x256, .bf16⟩
  | .local _ .vmem, ⟨17, _⟩ => ⟨S4096x256, .bf16⟩
  | .local _ .vmem, ⟨18, _⟩ => ⟨S256x256, .f32⟩
  | .local _ .vmem, ⟨19, _⟩ => ⟨S4096x256, .bf16⟩
  | .local _ .vmem, ⟨20, _⟩ => ⟨S4096x256, .bf16⟩
  | .local _ .vmem, ⟨21, _⟩ => ⟨S2048x133, .f32⟩
  | .local _ .vmem, ⟨22, _⟩ => ⟨S2048x133, .f32⟩
  | .local _ .vmem, ⟨23, _⟩ => ⟨S2048x256, .f32⟩
  | .local _ .vmem, ⟨24, _⟩ => ⟨S2048x256, .f32⟩
  | .local _ .vmem, ⟨25, _⟩ => ⟨S133x256, .f32⟩
  | .local _ .vmem, ⟨26, _⟩ => ⟨S256x256, .f32⟩
  | .local _ .vmem, ⟨27, _⟩ => ⟨S1x256, .f32⟩
  | .local _ .vmem, ⟨28, _⟩ => ⟨S2048x256, .f32⟩
  | .local _ .vmem, ⟨29, _⟩ => ⟨S2048x256, .f32⟩
  | _, _ => ⟨S65536x133, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_10 : Ref sig .tc := ⟨.hbm, 67, rfl⟩
abbrev main_v44 : Ref sig .tc := ⟨.hbm, 68, rfl⟩
abbrev main_v45 : Ref sig .tc := ⟨.hbm, 69, rfl⟩
abbrev main_c_11 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_12 : Ref sig .tc := ⟨.hbm, 80, rfl⟩
abbrev main_v55 : Ref sig .tc := ⟨.hbm, 81, rfl⟩
abbrev main_v56 : Ref sig .tc := ⟨.hbm, 82, rfl⟩
abbrev main_c_13 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_14 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_15 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_16 : Ref sig .tc := ⟨.hbm, 100, rfl⟩
abbrev main_v71 : Ref sig .tc := ⟨.hbm, 101, rfl⟩
abbrev main_cst_17 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_18 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x147 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S147x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4096x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x133 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S133x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2048x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  inb_S2048x147_S2048x147_0_0 : ∀ a, (![0, 0] : Fin 2 → Nat) a + S2048x147.size a ≤ S2048x147.size a
  h_S2048x147 : 0 < S2048x147.numel
  bitsLt_bf16_f32 : FTy.bits .bf16 < FTy.bits .f32
  inb_S147x256_S147x256_0_0 : ∀ a, (![0, 0] : Fin 2 → Nat) a + S147x256.size a ≤ S147x256.size a
  h_S147x256 : 0 < S147x256.numel
  inb_S2048x256_S2048x256_0_0 : ∀ a, (![0, 0] : Fin 2 → Nat) a + S2048x256.size a ≤ S2048x256.size a
  h_S2048x256 : 0 < S2048x256.numel
  packedbf16_S2048x256_S2048x256_0_0 : (Rect.unit (s := S2048x256) ![0, 0] S2048x256.size inb_S2048x256_S2048x256_0_0).PackedRows (EltTy.packing .bf16)
  bcast_S_S65536x6 : S_.BroadcastsInDim S65536x6 (![] : Fin 0 → Fin S65536x6.rank)
  bcast_S65536x6_S65536x6x1_0_1 : S65536x6.BroadcastsInDim S65536x6x1 (![0, 1] : Fin 2 → Fin S65536x6x1.rank)
  reducesTo_S65536x6x256_S65536x256_d1 : S65536x6x256.ReducesTo [1] S65536x256
  h_S_ : 0 < S_.numel
  bcast_S_S262144 : S_.BroadcastsInDim S262144 (![] : Fin 0 → Fin S262144.rank)
  bcast_S262144_S262144x1_0 : S262144.BroadcastsInDim S262144x1 (![0] : Fin 1 → Fin S262144x1.rank)
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x256_S256x256_0_0 : ∀ a, (![0, 0] : Fin 2 → Nat) a + S256x256.size a ≤ S256x256.size a
  h_S256x256 : 0 < S256x256.numel
  packedbf16_S4096x256_S4096x256_0_0 : (Rect.unit (s := S4096x256) ![0, 0] S4096x256.size inb_S4096x256_S4096x256_0_0).PackedRows (EltTy.packing .bf16)
  slices_S389x256_S133x256_0_0 : S389x256.Slices ![0, 0] S133x256
  slices_S389x256_S256x256_133_0 : S389x256.Slices ![133, 0] S256x256
  shapeCasts_S256_S1x256 : S256.ShapeCasts S1x256
  inb_S2048x133_S2048x133_0_0 : ∀ a, (![0, 0] : Fin 2 → Nat) a + S2048x133.size a ≤ S2048x133.size a
  h_S2048x133 : 0 < S2048x133.numel
  shapeCasts_S2048x256_S2048x256 : S2048x256.ShapeCasts S2048x256
  inb_S133x256_S133x256_0_0 : ∀ a, (![0, 0] : Fin 2 → Nat) a + S133x256.size a ≤ S133x256.size a
  h_S133x256 : 0 < S133x256.numel
  shapeCasts_S133x256_S133x256 : S133x256.ShapeCasts S133x256
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  bcast_S_S2048x256 : S_.BroadcastsInDim S2048x256 (![] : Fin 0 → Fin S2048x256.rank)
  bcast_S65536_S65536x1_0 : S65536.BroadcastsInDim S65536x1 (![0] : Fin 1 → Fin S65536x1.rank)
  bcast_S_S65536 : S_.BroadcastsInDim S65536 (![] : Fin 0 → Fin S65536.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x256_0_1 : S2048x1.BroadcastsInDim S2048x256 (![0, 1] : Fin 2 → Fin S2048x256.rank)
  dot_S2048x147_S147x256_S2048x256_1_0_0_1_n_n_wf : DotDims.WF S2048x147 S147x256 S2048x256 [1] [0] [0] [1] [] []
  gather_S262144x256_S65536x6x1_S65536x6x256_2_0_n_n_0_2_1256_wf : GatherDims.WF S262144x256 S65536x6x1 S65536x6x256 [2] [0] [] [0] [] 2 ![1, 256]
  gather_S65536x256_S262144x1_S262144x256_1_0_n_n_0_1_1256_wf : GatherDims.WF S65536x256 S262144x1 S262144x256 [1] [0] [] [0] [] 1 ![1, 256]
  gather_S262144x256_S262144x1_S262144x256_1_0_n_n_0_1_1256_wf : GatherDims.WF S262144x256 S262144x1 S262144x256 [1] [0] [] [0] [] 1 ![1, 256]
  dot_S4096x256_S256x256_S4096x256_1_0_0_1_n_n_wf : DotDims.WF S4096x256 S256x256 S4096x256 [1] [0] [0] [1] [] []
  dot_S2048x133_S133x256_S2048x256_1_0_0_1_n_n_wf : DotDims.WF S2048x133 S133x256 S2048x256 [1] [0] [0] [1] [] []
  dot_S2048x256_S256x256_S2048x256_1_0_0_1_n_n_wf : DotDims.WF S2048x256 S256x256 S2048x256 [1] [0] [0] [1] [] []
  scatter_S2048x256_S65536x1_S65536x256_1_0_0_1_wf : ScatterDims.WF S2048x256 S65536x1 S65536x256 [1] [0] [0] 1
  scatter_S2048_S65536x1_S65536_n_0_0_1_wf : ScatterDims.WF S2048 S65536x1 S65536 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x147.size a ≤ S262144x147.size a
  hwx0_0 : ∀ i : grid0.Coords, EltTy.bits .f32 = 32 ∨ (Rect.block (s := S262144x147) S2048x147.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S147x256.size a ≤ S147x256.size a
  hwx0_1 : ∀ i : grid0.Coords, EltTy.bits .f32 = 32 ∨ (Rect.block (s := S147x256) S147x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S262144x256.size a
  hwx0_2 : ∀ i : grid0.Coords, EltTy.bits .f32 = 32 ∨ (Rect.block (s := S262144x256) S2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S262144x256.size a
  hwx0_3 : ∀ i : grid0.Coords, EltTy.bits .bf16 = 32 ∨ (Rect.block (s := S262144x256) S2048x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S262144x256.size a
  hwx1_0 : ∀ i : grid1.Coords, EltTy.bits .f32 = 32 ∨ (Rect.block (s := S262144x256) S4096x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S262144x256.size a
  hwx1_1 : ∀ i : grid1.Coords, EltTy.bits .bf16 = 32 ∨ (Rect.block (s := S262144x256) S4096x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x256.size a ≤ S262144x256.size a
  hwx1_3 : ∀ i : grid1.Coords, EltTy.bits .bf16 = 32 ∨ (Rect.block (s := S262144x256) S4096x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x256.size a ≤ S262144x256.size a
  hwx2_0 : ∀ i : grid2.Coords, EltTy.bits .f32 = 32 ∨ (Rect.block (s := S262144x256) S4096x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x256.size a ≤ S262144x256.size a
  hwx2_1 : ∀ i : grid2.Coords, EltTy.bits .bf16 = 32 ∨ (Rect.block (s := S262144x256) S4096x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x256.size a ≤ S262144x256.size a
  hwx2_3 : ∀ i : grid2.Coords, EltTy.bits .bf16 = 32 ∨ (Rect.block (s := S262144x256) S4096x256.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x133.size a ≤ S65536x133.size a
  hwx3_0 : ∀ i : grid3.Coords, EltTy.bits .f32 = 32 ∨ (Rect.block (s := S65536x133) S2048x133.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x256.size a ≤ S65536x256.size a
  hwx3_1 : ∀ i : grid3.Coords, EltTy.bits .f32 = 32 ∨ (Rect.block (s := S65536x256) S2048x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S133x256.size a ≤ S133x256.size a
  hwx3_2 : ∀ i : grid3.Coords, EltTy.bits .f32 = 32 ∨ (Rect.block (s := S133x256) S133x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2048x256.size a ≤ S65536x256.size a
  hwx3_5 : ∀ i : grid3.Coords, EltTy.bits .f32 = 32 ∨ (Rect.block (s := S65536x256) S2048x256.size (cc3_transform_5 i) (hinb3_5 i)).WholeWords (EltTy.packing .f32)

variable [Facts₀]

def dot_S2048x147_S147x256_S2048x256_1_0_0_1_n_n : DotDims S2048x147 S147x256 S2048x256 where
  lhsContracting := [1]
  rhsContracting := [0]
  lhsNonContracting := [0]
  rhsNonContracting := [1]
  lhsBatch := []
  rhsBatch := []
  wf := dot_S2048x147_S147x256_S2048x256_1_0_0_1_n_n_wf
def gather_S262144x256_S65536x6x1_S65536x6x256_2_0_n_n_0_2_1256 : GatherDims S262144x256 S65536x6x1 S65536x6x256 where
  offsetDims := [2]
  collapsedSliceDims := [0]
  operandBatchingDims := []
  startIndicesBatchingDims := []
  startIndexMap := [0]
  indexVectorDim := 2
  sliceSizes := ![1, 256]
  wf := gather_S262144x256_S65536x6x1_S65536x6x256_2_0_n_n_0_2_1256_wf
def gather_S65536x256_S262144x1_S262144x256_1_0_n_n_0_1_1256 : GatherDims S65536x256 S262144x1 S262144x256 where
  offsetDims := [1]
  collapsedSliceDims := [0]
  operandBatchingDims := []
  startIndicesBatchingDims := []
  startIndexMap := [0]
  indexVectorDim := 1
  sliceSizes := ![1, 256]
  wf := gather_S65536x256_S262144x1_S262144x256_1_0_n_n_0_1_1256_wf
def gather_S262144x256_S262144x1_S262144x256_1_0_n_n_0_1_1256 : GatherDims S262144x256 S262144x1 S262144x256 where
  offsetDims := [1]
  collapsedSliceDims := [0]
  operandBatchingDims := []
  startIndicesBatchingDims := []
  startIndexMap := [0]
  indexVectorDim := 1
  sliceSizes := ![1, 256]
  wf := gather_S262144x256_S262144x1_S262144x256_1_0_n_n_0_1_1256_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S2048x133_S133x256_S2048x256_1_0_0_1_n_n : DotDims S2048x133 S133x256 S2048x256 where
  lhsContracting := [1]
  rhsContracting := [0]
  lhsNonContracting := [0]
  rhsNonContracting := [1]
  lhsBatch := []
  rhsBatch := []
  wf := dot_S2048x133_S133x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def scatter_S2048x256_S65536x1_S65536x256_1_0_0_1 : ScatterDims S2048x256 S65536x1 S65536x256 where
  updateWindowDims := [1]
  insertedWindowDims := [0]
  scatterDimsToOperandDims := [0]
  indexVectorDim := 1
  wf := scatter_S2048x256_S65536x1_S65536x256_1_0_0_1_wf
def scatter_S2048_S65536x1_S65536_n_0_0_1 : ScatterDims S2048 S65536x1 S65536 where
  updateWindowDims := []
  insertedWindowDims := [0]
  scatterDimsToOperandDims := [0]
  indexVectorDim := 1
  wf := scatter_S2048_S65536x1_S65536_n_0_0_1_wf

abbrev win0_0 : Pipeline.Window sig grid0 :=
  Pipeline.Window.ofSpec (Memref.whole main_arg1) S2048x147.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S147x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S2048x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0_0) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S4096x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0_0) S4096x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S4096x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S4096x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg0) S2048x133.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S2048x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v64) S133x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v66) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v67) S2048x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S65536x133 : Shape := ⟨2, ![65536, 133]⟩
abbrev S262144x147 : Shape := ⟨2, ![262144, 147]⟩
abbrev S147x256 : Shape := ⟨2, ![147, 256]⟩
abbrev S256x256 : Shape := ⟨2, ![256, 256]⟩
abbrev S389x256 : Shape := ⟨2, ![389, 256]⟩
abbrev S256 : Shape := ⟨1, ![256]⟩
abbrev S65536x6 : Shape := ⟨2, ![65536, 6]⟩
abbrev S262144 : Shape := ⟨1, ![262144]⟩
abbrev S65536 : Shape := ⟨1, ![65536]⟩
abbrev S262144x256 : Shape := ⟨2, ![262144, 256]⟩
abbrev S_ : Shape := ⟨0, ![]⟩
abbrev S65536x6x1 : Shape := ⟨3, ![65536, 6, 1]⟩
abbrev S65536x6x256 : Shape := ⟨3, ![65536, 6, 256]⟩
abbrev S65536x256 : Shape := ⟨2, ![65536, 256]⟩
abbrev S262144x1 : Shape := ⟨2, ![262144, 1]⟩
abbrev S65536x389 : Shape := ⟨2, ![65536, 389]⟩
abbrev S1x256 : Shape := ⟨2, ![1, 256]⟩
abbrev S2048x256 : Shape := ⟨2, ![2048, 256]⟩
abbrev S65536x1 : Shape := ⟨2, ![65536, 1]⟩
abbrev S2048 : Shape := ⟨1, ![2048]⟩
abbrev S2048x1 : Shape := ⟨2, ![2048, 1]⟩

abbrev nBuf : Space → Nat
  | .hbm => 119
  | .vmem => 0
  | .smem => 0
  | _ => 0

abbrev bufTy : (tb : Table) → Fin (tcTables nBuf tb) → BufTy
  | .hbm, ⟨0, _⟩ => ⟨S65536x133, .f32⟩
  | .hbm, ⟨1, _⟩ => ⟨S262144x147, .f32⟩
  | .hbm, ⟨2, _⟩ => ⟨S147x256, .f32⟩
  | .hbm, ⟨3, _⟩ => ⟨S256x256, .f32⟩
  | .hbm, ⟨4, _⟩ => ⟨S389x256, .f32⟩
  | .hbm, ⟨5, _⟩ => ⟨S256, .f32⟩
  | .hbm, ⟨6, _⟩ => ⟨S65536x6, .i32⟩
  | .hbm, ⟨7, _⟩ => ⟨S262144, .i32⟩
  | .hbm, ⟨8, _⟩ => ⟨S262144, .i32⟩
  | .hbm, ⟨9, _⟩ => ⟨S65536, .i32⟩
  | .hbm, ⟨10, _⟩ => ⟨S262144x256, .f32⟩
  | .hbm, ⟨11, _⟩ => ⟨S_, .f32⟩
  | .hbm, ⟨12, _⟩ => ⟨S262144x256, .f32⟩
  | .hbm, ⟨13, _⟩ => ⟨S262144x256, .f32⟩
  | .hbm, ⟨14, _⟩ => ⟨S_, .i32⟩
  | .hbm, ⟨15, _⟩ => ⟨S65536x6, .i32⟩
  | .hbm, ⟨16, _⟩ => ⟨S65536x6, .i1⟩
  | .hbm, ⟨17, _⟩ => ⟨S_, .i32⟩
  | .hbm, ⟨18, _⟩ => ⟨S65536x6, .i32⟩
  | .hbm, ⟨19, _⟩ => ⟨S65536x6, .i32⟩
  | .hbm, ⟨20, _⟩ => ⟨S65536x6, .i32⟩
  | .hbm, ⟨21, _⟩ => ⟨S65536x6x1, .i32⟩
  | .hbm, ⟨22, _⟩ => ⟨S65536x6x256, .f32⟩
  | .hbm, ⟨23, _⟩ => ⟨S_, .f32⟩
  | .hbm, ⟨24, _⟩ => ⟨S65536x256, .f32⟩
  | .hbm, ⟨25, _⟩ => ⟨S_, .i32⟩
  | .hbm, ⟨26, _⟩ => ⟨S262144, .i32⟩
  | .hbm, ⟨27, _⟩ => ⟨S262144, .i1⟩
  | .hbm, ⟨28, _⟩ => ⟨S_, .i32⟩
  | .hbm, ⟨29, _⟩ => ⟨S262144, .i32⟩
  | .hbm, ⟨30, _⟩ => ⟨S262144, .i32⟩
  | .hbm, ⟨31, _⟩ => ⟨S262144, .i32⟩
  | .hbm, ⟨32, _⟩ => ⟨S262144x1, .i32⟩
  | .hbm, ⟨33, _⟩ => ⟨S262144x256, .f32⟩
  | .hbm, ⟨34, _⟩ => ⟨S_, .i32⟩
  | .hbm, ⟨35, _⟩ => ⟨S262144, .i32⟩
  | .hbm, ⟨36, _⟩ => ⟨S262144, .i1⟩
  | .hbm, ⟨37, _⟩ => ⟨S_, .i32⟩
  | .hbm, ⟨38, _⟩ => ⟨S262144, .i32⟩
  | .hbm, ⟨39, _⟩ => ⟨S262144, .i32⟩
  | .hbm, ⟨40, _⟩ => ⟨S262144, .i32⟩
  | .hbm, ⟨41, _⟩ => ⟨S262144x1, .i32⟩
  | .hbm, ⟨42, _⟩ => ⟨S262144x256, .f32⟩
  | .hbm, ⟨43, _⟩ => ⟨S262144x256, .f32⟩
  | .hbm, ⟨44, _⟩ => ⟨S262144x256, .f32⟩
  | .hbm, ⟨45, _⟩ => ⟨S262144x256, .f32⟩
  | .hbm, ⟨46, _⟩ => ⟨S_, .f32⟩
  | .hbm, ⟨47, _⟩ => ⟨S262144x256, .f32⟩
  | .hbm, ⟨48, _⟩ => ⟨S262144x256, .f32⟩
  | .hbm, ⟨49, _⟩ => ⟨S_, .i32⟩
  | .hbm, ⟨50, _⟩ => ⟨S65536x6, .i32⟩
  | .hbm, ⟨51, _⟩ => ⟨S65536x6, .i1⟩
  | .hbm, ⟨52, _⟩ => ⟨S_, .i32⟩
  | .hbm, ⟨53, _⟩ => ⟨S65536x6, .i32⟩
  | .hbm, ⟨54, _⟩ => ⟨S65536x6, .i32⟩
  | .hbm, ⟨55, _⟩ => ⟨S65536x6, .i32⟩
  | .hbm, ⟨56, _⟩ => ⟨S65536x6x1, .i32⟩
  | .hbm, ⟨57, _⟩ => ⟨S65536x6x256, .f32⟩
  | .hbm, ⟨58, _⟩ => ⟨S_, .f32⟩
  | .hbm, ⟨59, _⟩ => ⟨S65536x256, .f32⟩
  | .hbm, ⟨60, _⟩ => ⟨S_, .i32⟩
  | .hbm, ⟨61, _⟩ => ⟨S262144, .i32⟩
  | .hbm, ⟨62, _⟩ => ⟨S262144, .i1⟩
  | .hbm, ⟨63, _⟩ => ⟨S_, .i32⟩
  | .hbm, ⟨64, _⟩ => ⟨S262144, .i32⟩
  | .hbm, ⟨65, _⟩ => ⟨S262144, .i32⟩
  | .hbm, ⟨66, _⟩ => ⟨S262144, .i32⟩
  | .hbm, ⟨67, _⟩ => ⟨S262144x1, .i32⟩
  | .hbm, ⟨68, _⟩ => ⟨S262144x256, .f32⟩
  | .hbm, ⟨69, _⟩ => ⟨S_, .i32⟩
  | .hbm, ⟨70, _⟩ => ⟨S262144, .i32⟩
  | .hbm, ⟨71, _⟩ => ⟨S262144, .i1⟩
  | .hbm, ⟨72, _⟩ => ⟨S_, .i32⟩
  | .hbm, ⟨73, _⟩ => ⟨S262144, .i32⟩
  | .hbm, ⟨74, _⟩ => ⟨S262144, .i32⟩
  | .hbm, ⟨75, _⟩ => ⟨S262144, .i32⟩
  | .hbm, ⟨76, _⟩ => ⟨S262144x1, .i32⟩
  | .hbm, ⟨77, _⟩ => ⟨S262144x256, .f32⟩
  | .hbm, ⟨78, _⟩ => ⟨S262144x256, .f32⟩
  | .hbm, ⟨79, _⟩ => ⟨S262144x256, .f32⟩
  | .hbm, ⟨80, _⟩ => ⟨S262144x256, .f32⟩
  | .hbm, ⟨81, _⟩ => ⟨S_, .f32⟩
  | .hbm, ⟨82, _⟩ => ⟨S262144x256, .f32⟩
  | .hbm, ⟨83, _⟩ => ⟨S262144x256, .f32⟩
  | .hbm, ⟨84, _⟩ => ⟨S_, .i32⟩
  | .hbm, ⟨85, _⟩ => ⟨S65536x6, .i32⟩
  | .hbm, ⟨86, _⟩ => ⟨S65536x6, .i1⟩
  | .hbm, ⟨87, _⟩ => ⟨S_, .i32⟩
  | .hbm, ⟨88, _⟩ => ⟨S65536x6, .i32⟩
  | .hbm, ⟨89, _⟩ => ⟨S65536x6, .i32⟩
  | .hbm, ⟨90, _⟩ => ⟨S65536x6, .i32⟩
  | .hbm, ⟨91, _⟩ => ⟨S65536x6x1, .i32⟩
  | .hbm, ⟨92, _⟩ => ⟨S65536x6x256, .f32⟩
  | .hbm, ⟨93, _⟩ => ⟨S_, .f32⟩
  | .hbm, ⟨94, _⟩ => ⟨S65536x256, .f32⟩
  | .hbm, ⟨95, _⟩ => ⟨S65536x389, .f32⟩
  | .hbm, ⟨96, _⟩ => ⟨S65536x256, .f32⟩
  | .hbm, ⟨97, _⟩ => ⟨S1x256, .f32⟩
  | .hbm, ⟨98, _⟩ => ⟨S65536x256, .f32⟩
  | .hbm, ⟨99, _⟩ => ⟨S65536x256, .f32⟩
  | .hbm, ⟨100, _⟩ => ⟨S_, .f32⟩
  | .hbm, ⟨101, _⟩ => ⟨S65536x256, .f32⟩
  | .hbm, ⟨102, _⟩ => ⟨S65536x256, .f32⟩
  | .hbm, ⟨103, _⟩ => ⟨S_, .f32⟩
  | .hbm, ⟨104, _⟩ => ⟨S2048x256, .f32⟩
  | .hbm, ⟨105, _⟩ => ⟨S65536x1, .i32⟩
  | .hbm, ⟨106, _⟩ => ⟨S2048x256, .f32⟩
  | .hbm, ⟨107, _⟩ => ⟨S_, .f32⟩
  | .hbm, ⟨108, _⟩ => ⟨S65536, .f32⟩
  | .hbm, ⟨109, _⟩ => ⟨S_, .f32⟩
  | .hbm, ⟨110, _⟩ => ⟨S2048, .f32⟩
  | .hbm, ⟨111, _⟩ => ⟨S65536x1, .i32⟩
  | .hbm, ⟨112, _⟩ => ⟨S2048, .f32⟩
  | .hbm, ⟨113, _⟩ => ⟨S_, .f32⟩
  | .hbm, ⟨114, _⟩ => ⟨S2048, .f32⟩
  | .hbm, ⟨115, _⟩ => ⟨S2048, .f32⟩
  | .hbm, ⟨116, _⟩ => ⟨S2048x1, .f32⟩
  | .hbm, ⟨117, _⟩ => ⟨S2048x256, .f32⟩
  | .hbm, ⟨118, _⟩ => ⟨S2048x256, .f32⟩
  | _, _ => ⟨S65536x133, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_cst : Ref sig .tc := ⟨.hbm, 11, rfl⟩
abbrev main_call0_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call1_cst : Ref sig .tc := ⟨.hbm, 46, rfl⟩
abbrev main_call1_v0 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_c_9 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_10 : Ref sig .tc := ⟨.hbm, 69, rfl⟩
abbrev main_v43 : Ref sig .tc := ⟨.hbm, 70, rfl⟩
abbrev main_v44 : Ref sig .tc := ⟨.hbm, 71, rfl⟩
abbrev main_c_11 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call2_cst : Ref sig .tc := ⟨.hbm, 81, rfl⟩
abbrev main_call2_v0 : Ref sig .tc := ⟨.hbm, 82, rfl⟩
abbrev main_v53 : Ref sig .tc := ⟨.hbm, 83, rfl⟩
abbrev main_c_12 : Ref sig .tc := ⟨.hbm, 84, rfl⟩
abbrev main_v54 : Ref sig .tc := ⟨.hbm, 85, rfl⟩
abbrev main_v55 : Ref sig .tc := ⟨.hbm, 86, rfl⟩
abbrev main_c_13 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_14 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_call3_cst : Ref sig .tc := ⟨.hbm, 100, rfl⟩
abbrev main_call3_v0 : Ref sig .tc := ⟨.hbm, 101, rfl⟩
abbrev main_v67 : Ref sig .tc := ⟨.hbm, 102, rfl⟩
abbrev main_cst_15 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_16 : Ref sig .tc := ⟨.hbm, 107, rfl⟩
abbrev main_v71 : Ref sig .tc := ⟨.hbm, 108, rfl⟩
abbrev main_cst_17 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_18 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩

abbrev nD : Nat := 1
abbrev τ : Topo := Topo.v7x

variable {F : FTy → Type} [FloatOps F]

class Facts₀ : Prop where
  bcast_S_S262144x256 : S_.BroadcastsInDim S262144x256 (![] : Fin 0 → Fin S262144x256.rank)
  bcast_S_S65536x6 : S_.BroadcastsInDim S65536x6 (![] : Fin 0 → Fin S65536x6.rank)
  bcast_S65536x6_S65536x6x1_0_1 : S65536x6.BroadcastsInDim S65536x6x1 (![0, 1] : Fin 2 → Fin S65536x6x1.rank)
  reducesTo_S65536x6x256_S65536x256_d1 : S65536x6x256.ReducesTo [1] S65536x256
  h_S_ : 0 < S_.numel
  bcast_S_S262144 : S_.BroadcastsInDim S262144 (![] : Fin 0 → Fin S262144.rank)
  bcast_S262144_S262144x1_0 : S262144.BroadcastsInDim S262144x1 (![0] : Fin 1 → Fin S262144x1.rank)
  concatenates_S65536x133_S65536x256_S65536x389_d1 : Shape.Concatenates [S65536x133, S65536x256] S65536x389 1
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  bcast_S_S2048x256 : S_.BroadcastsInDim S2048x256 (![] : Fin 0 → Fin S2048x256.rank)
  bcast_S65536_S65536x1_0 : S65536.BroadcastsInDim S65536x1 (![0] : Fin 1 → Fin S65536x1.rank)
  bcast_S_S65536 : S_.BroadcastsInDim S65536 (![] : Fin 0 → Fin S65536.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x256_0_1 : S2048x1.BroadcastsInDim S2048x256 (![0, 1] : Fin 2 → Fin S2048x256.rank)
  dot_S262144x147_S147x256_S262144x256_1_0_0_1_n_n_wf : DotDims.WF S262144x147 S147x256 S262144x256 [1] [0] [0] [1] [] []
  gather_S262144x256_S65536x6x1_S65536x6x256_2_0_n_n_0_2_1256_wf : GatherDims.WF S262144x256 S65536x6x1 S65536x6x256 [2] [0] [] [0] [] 2 ![1, 256]
  gather_S65536x256_S262144x1_S262144x256_1_0_n_n_0_1_1256_wf : GatherDims.WF S65536x256 S262144x1 S262144x256 [1] [0] [] [0] [] 1 ![1, 256]
  gather_S262144x256_S262144x1_S262144x256_1_0_n_n_0_1_1256_wf : GatherDims.WF S262144x256 S262144x1 S262144x256 [1] [0] [] [0] [] 1 ![1, 256]
  dot_S262144x256_S256x256_S262144x256_1_0_0_1_n_n_wf : DotDims.WF S262144x256 S256x256 S262144x256 [1] [0] [0] [1] [] []
  dot_S65536x389_S389x256_S65536x256_1_0_0_1_n_n_wf : DotDims.WF S65536x389 S389x256 S65536x256 [1] [0] [0] [1] [] []
  scatter_S2048x256_S65536x1_S65536x256_1_0_0_1_wf : ScatterDims.WF S2048x256 S65536x1 S65536x256 [1] [0] [0] 1
  scatter_S2048_S65536x1_S65536_n_0_0_1_wf : ScatterDims.WF S2048 S65536x1 S65536 [] [0] [0] 1

variable [Facts₀]

def dot_S262144x147_S147x256_S262144x256_1_0_0_1_n_n : DotDims S262144x147 S147x256 S262144x256 where
  lhsContracting := [1]
  rhsContracting := [0]
  lhsNonContracting := [0]
  rhsNonContracting := [1]
  lhsBatch := []
  rhsBatch := []
  wf := dot_S262144x147_S147x256_S262144x256_1_0_0_1_n_n_wf
def gather_S262144x256_S65536x6x1_S65536x6x256_2_0_n_n_0_2_1256 : GatherDims S262144x256 S65536x6x1 S65536x6x256 where
  offsetDims := [2]
  collapsedSliceDims := [0]
  operandBatchingDims := []
  startIndicesBatchingDims := []
  startIndexMap := [0]
  indexVectorDim := 2
  sliceSizes := ![1, 256]
  wf := gather_S262144x256_S65536x6x1_S65536x6x256_2_0_n_n_0_2_1256_wf
def gather_S65536x256_S262144x1_S262144x256_1_0_n_n_0_1_1256 : GatherDims S65536x256 S262144x1 S262144x256 where
  offsetDims := [1]
  collapsedSliceDims := [0]
  operandBatchingDims := []
  startIndicesBatchingDims := []
  startIndexMap := [0]
  indexVectorDim := 1
  sliceSizes := ![1, 256]
  wf := gather_S65536x256_S262144x1_S262144x256_1_0_n_n_0_1_1256_wf
def gather_S262144x256_S262144x1_S262144x256_1_0_n_n_0_1_1256 : GatherDims S262144x256 S262144x1 S262144x256 where
  offsetDims := [1]
  collapsedSliceDims := [0]
  operandBatchingDims := []
  startIndicesBatchingDims := []
  startIndexMap := [0]
  indexVectorDim := 1
  sliceSizes := ![1, 256]
  wf := gather_S262144x256_S262144x1_S262144x256_1_0_n_n_0_1_1256_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S65536x389_S389x256_S65536x256_1_0_0_1_n_n : DotDims S65536x389 S389x256 S65536x256 where
  lhsContracting := [1]
  rhsContracting := [0]
  lhsNonContracting := [0]
  rhsNonContracting := [1]
  lhsBatch := []
  rhsBatch := []
  wf := dot_S65536x389_S389x256_S65536x256_1_0_0_1_n_n_wf
def scatter_S2048x256_S65536x1_S65536x256_1_0_0_1 : ScatterDims S2048x256 S65536x1 S65536x256 where
  updateWindowDims := [1]
  insertedWindowDims := [0]
  scatterDimsToOperandDims := [0]
  indexVectorDim := 1
  wf := scatter_S2048x256_S65536x1_S65536x256_1_0_0_1_wf
def scatter_S2048_S65536x1_S65536_n_0_0_1 : ScatterDims S2048 S65536x1 S65536 where
  updateWindowDims := []
  insertedWindowDims := [0]
  scatterDimsToOperandDims := [0]
  indexVectorDim := 1
  wf := scatter_S2048_S65536x1_S65536_n_0_0_1_wf

class Facts : Prop extends Facts₀ where

variable [Facts]
-- ==== Proof.KernelRun.lean ====
/-
  The idealized kernel's run with its result named.

  The program is four pipelined regions among five stretches of host operations. Its generated frame proof runs
  these eight segments from the launch memory and keeps, at every boundary, the contents of every buffer as a fold
  through the program: a host stretch applies its operations, a region replaces its arrays by what its write-backs
  leave. The last of these folds is read here at the result buffer as well as at the ten arguments, so the run's post
  says what the result buffer holds: the last fold's value there. The other modules open that value stage by stage.
-/
import proofs.«139782_j41394894799199_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the arguments end as launched. -/
theorem run : θ_run defs (onTc (τ := τ) (main (F := F))) ⟨m, fun _ => 0, ρ⟩ (fun r => ∀ c : Dev nD,
      r.2.mem ((c.tc : Thread nD τ).loc main_v79) = W8 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v79 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.KRun

end
-- ==== Proof.LibPlainProduct.lean ====
/-
  A rows-by-columns matrix product, read at an index, at the ideal values.

  An M×K matrix times a K×P matrix, contracting the left operand's columns with the right operand's rows and with no batch
  axis. A kernel computes it on the matrix unit, accumulating into a splat of zeros; a host program computes it as a
  `dot_general`. At the ideal values both, read at (r, c), are the plain sum over k of lhs(r, k) · rhs(k, c): no rounding, no
  chunk order, and the zero accumulator adds nothing. So the two spellings of a dense layer meet at this sum, term by term.
-/
import Idealize.ShloMosaic.Lib.ValueIdx
import Idealize.ShloMosaic.PureOps.Ideal.Laws

noncomputable section

namespace PlainProduct

open Idealize.ShloMosaic Idealize.ShloMosaic.ValueIdx

variable {M K P : Nat}

/-- The dimension numbers of an M×K by K×P product. -/
abbrev plainDims (M K P : Nat)
    (wf : DotDims.WF (⟨2, ![M, K]⟩ : Shape) ⟨2, ![K, P]⟩ ⟨2, ![M, P]⟩ [1] [0] [0] [1] [] []) :
    DotDims ⟨2, ![M, K]⟩ ⟨2, ![K, P]⟩ ⟨2, ![M, P]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, P]⟩ ⟨2, ![M, P]⟩ [1] [0] [0] [1] [] [])

/-- The sum over the contraction index is the sum over k of lhs(r, k) · rhs(k, c). -/
theorem contr_sum (lhs : (⟨2, ![M, K]⟩ : Shape).Idx → EReal) (rhs : (⟨2, ![K, P]⟩ : Shape).Idx → EReal) (r : Fin M) (c : Fin P) :
    ∑ q : (plainDims M K P wf).contr.Idx,
        lhs ((plainDims M K P wf).lhsIdx (ix2 r c) q) * rhs ((plainDims M K P wf).rhsIdx (ix2 r c) q)
      = ∑ k : Fin K, lhs (ix2 r k) * rhs (ix2 k c) := by
  rw [← Equiv.sum_comp (contrEquiv1 (plainDims M K P wf) K rfl rfl).symm]
  refine Finset.sum_congr rfl fun k _ => ?_
  have hl : (plainDims M K P wf).lhsIdx (ix2 r c) ((contrEquiv1 (plainDims M K P wf) K rfl rfl).symm k) = ix2 r k := by
    funext a
    refine Fin.ext ?_
    match a with
    | ⟨0, _⟩ => rfl
    | ⟨1, _⟩ =>
      exact (DotDims.lhsIdx_val_of_single (d := plainDims M K P wf) (cl := (1 : Fin 2)) rfl (ix2 r c) _).trans
        (contrEquiv1_symm_val (plainDims M K P wf) K rfl rfl k)
  have hr : (plainDims M K P wf).rhsIdx (ix2 r c) ((contrEquiv1 (plainDims M K P wf) K rfl rfl).symm k) = ix2 k c := by
    funext a
    refine Fin.ext ?_
    match a with
    | ⟨0, _⟩ =>
      exact (DotDims.rhsIdx_val_of_single (d := plainDims M K P wf) (cr := (0 : Fin 2)) rfl (ix2 r c) _).trans
        (contrEquiv1_symm_val (plainDims M K P wf) K rfl rfl k)
    | ⟨1, _⟩ => rfl
  rw [hl, hr]

/-- THE KERNEL'S PRODUCT, accumulated into a splat of zeros, READ AT (r, c). -/
theorem matmul_zero_apply {φ₁ φ₂ : FTy} (prec : Option ContractPrecision) (lhs : FVec Ideal ⟨2, ![M, K]⟩ φ₁)
    (rhs : FVec Ideal ⟨2, ![K, P]⟩ φ₂) (r : Fin M) (c : Fin P) :
    matmul (plainDims M K P wf) prec lhs rhs (constant ⟨2, ![M, P]⟩ .f32 0x00000000#32) (ix2 r c)
      = ∑ k : Fin K, lhs (ix2 r k) * rhs (ix2 k c) :=
  (Ideal.matmul_constant_zero_apply (plainDims M K P wf) prec lhs rhs (ix2 r c)).trans (contr_sum wf lhs rhs r c)

/-- THE HOST'S PRODUCT READ AT (r, c). -/
theorem dotGeneral_apply {φ₁ φ₂ : FTy} (prec : Option ContractPrecision) (lhs : FVec Ideal ⟨2, ![M, K]⟩ φ₁)
    (rhs : FVec Ideal ⟨2, ![K, P]⟩ φ₂) (r : Fin M) (c : Fin P) :
    Host.dotGeneral (plainDims M K P wf) prec lhs rhs (ix2 r c) = ∑ k : Fin K, lhs (ix2 r k) * rhs (ix2 k c) :=
  (Ideal.dotGeneral_apply (plainDims M K P wf) prec .single lhs rhs (ix2 r c)).trans (contr_sum wf lhs rhs r c)

end PlainProduct

end
-- ==== Proof.LibBondLayers.lean ====
/-
  The layers of a bond-message-passing network on the extended reals, index by index.

  A matrix product reads, at (r, c), the sum over k of a(r, k) · w(k, c): row r of the result depends on row r of the
  left factor only, so a block of consecutive rows of the product is the product of the matching block of rows
  (`mm_rows`). The rectifier is the entrywise maximum with the value of the f32 zero word. Three layers are built
  from these:

    * the bond initialisation  relu (f · W),
    * the bond update          relu (inp + m · W),
    * the atom layer           relu (f · W₁ + a · W₂ + b), the bias b a one-row matrix,

  and each is read here in the two spellings that compute it: the matrix unit accumulating into a splat of zeros with
  the rectifier's zero a splat of a scalar, and the host's `dot_general` with the zero a broadcast rank-0 constant.
  At these values both spellings are the same sums: no rounding, no order of accumulation, and the zero accumulator
  adds nothing.
-/
import Idealize.ShloMosaic.Lib.ValueIdx
import Idealize.ShloMosaic.Lib.ValueLayout
import Idealize.ShloMosaic.Lib.Pipeline.Value
import Idealize.ShloMosaic.PureOps.Ideal.Laws
import proofs.«139782_j41394894799199_2_alg».proof.Proof.LibPlainProduct

noncomputable section

namespace Mpnn

open Idealize.ShloMosaic Idealize.ShloMosaic.ValueIdx

/-- An a-by-b matrix of extended reals. -/
abbrev Mat (a b : Nat) := (⟨2, ![a, b]⟩ : Shape).Idx → EReal

variable {R R' K K₁ K₂ P : Nat}

/-- The matrix product, entry by entry. -/
def mm (a : Mat R K) (w : Mat K P) : Mat R P := fun i => ∑ k : Fin K, a (ix2 (i 0) k) * w (ix2 k (i 1))

theorem mm_apply (a : Mat R K) (w : Mat K P) (r : Fin R) (c : Fin P) :
    mm a w (ix2 r c) = ∑ k : Fin K, a (ix2 r k) * w (ix2 k c) := rfl

/-- A row of the product is a function of the same row of the left factor. -/
theorem mm_rows (a : Mat R K) (a' : Mat R' K) (w w' : Mat K P) (r : Fin R) (r' : Fin R') (c : Fin P)
    (ha : ∀ k : Fin K, a' (ix2 r' k) = a (ix2 r k)) (hw : ∀ k : Fin K, w' (ix2 k c) = w (ix2 k c)) :
    mm a' w' (ix2 r' c) = mm a w (ix2 r c) := by
  rw [mm_apply, mm_apply]
  exact Finset.sum_congr rfl fun k _ => by rw [ha k, hw k]

/-- Entry j of a product is entry i of another when row (j 0) of the one's left factor is row (i 0) of the other's and
    column (j 1) of the one's right factor is column (i 1) of the other's. -/
theorem mm_point {P' : Nat} (a : Mat R K) (w : Mat K P) (a' : Mat R' K) (w' : Mat K P')
    (j : (⟨2, ![R', P']⟩ : Shape).Idx) (i : (⟨2, ![R, P]⟩ : Shape).Idx)
    (ha : ∀ k : Fin K, a' (ix2 (j 0) k) = a (ix2 (i 0) k)) (hw : ∀ k : Fin K, w' (ix2 k (j 1)) = w (ix2 k (i 1))) :
    mm a' w' j = mm a w i :=
  Finset.sum_congr rfl fun k _ => by rw [ha k, hw k]

/-- The rectifier: the entrywise maximum with the value of the f32 zero word. -/
def relu (z : Mat R P) : Mat R P := fun i => max (z i) (Ideal.ofBits .f32 0x00000000#32)

/-- The bond update: the rectified sum of the initial hidden state and the message times the weights. -/
def step (inp : Mat R P) (msg : Mat R K) (w : Mat K P) : Mat R P := relu fun i => inp i + mm msg w i

/-- The atom layer: two products, a bias row, the rectifier. -/
def atom (f : Mat R K₁) (a : Mat R K₂) (w₁ : Mat K₁ P) (w₂ : Mat K₂ P) (b : Mat 1 P) : Mat R P :=
  relu fun i => mm f w₁ i + mm a w₂ i + b (ix2 (0 : Fin 1) (i 1))

theorem relu_apply (z : Mat R P) (i) : relu z i = max (z i) (Ideal.ofBits .f32 0x00000000#32) := rfl

theorem step_apply (inp : Mat R P) (msg : Mat R K) (w : Mat K P) (r : Fin R) (c : Fin P) :
    step inp msg w (ix2 r c) = max (inp (ix2 r c) + mm msg w (ix2 r c)) (Ideal.ofBits .f32 0x00000000#32) := rfl

theorem atom_apply (f : Mat R K₁) (a : Mat R K₂) (w₁ : Mat K₁ P) (w₂ : Mat K₂ P) (b : Mat 1 P) (r : Fin R) (c : Fin P) :
    atom f a w₁ w₂ b (ix2 r c)
      = max (mm f w₁ (ix2 r c) + mm a w₂ (ix2 r c) + b (ix2 (0 : Fin 1) c)) (Ideal.ofBits .f32 0x00000000#32) := rfl

/-- Entry j of one bond update is entry i of another when the hidden states agree there, row (j 0) of the one's
    messages is row (i 0) of the other's and the weights' columns agree. -/
theorem step_point {P' : Nat} (inp : Mat R P) (msg : Mat R K) (w : Mat K P) (inp' : Mat R' P') (msg' : Mat R' K) (w' : Mat K P')
    (j : (⟨2, ![R', P']⟩ : Shape).Idx) (i : (⟨2, ![R, P]⟩ : Shape).Idx) (hi : inp' j = inp i)
    (ha : ∀ k : Fin K, msg' (ix2 (j 0) k) = msg (ix2 (i 0) k)) (hw : ∀ k : Fin K, w' (ix2 k (j 1)) = w (ix2 k (i 1))) :
    step inp' msg' w' j = step inp msg w i := by
  show max (inp' j + mm msg' w' j) _ = max (inp i + mm msg w i) _
  rw [hi, mm_point msg w msg' w' j i ha hw]

/-- Entry j of one atom layer is entry i of another when rows (j 0) and (i 0) of the two left factors agree, the
    weights' columns agree and the bias entries agree. -/
theorem atom_point {P' : Nat} (f : Mat R K₁) (a : Mat R K₂) (w₁ : Mat K₁ P) (w₂ : Mat K₂ P) (b : Mat 1 P)
    (f' : Mat R' K₁) (a' : Mat R' K₂) (w₁' : Mat K₁ P') (w₂' : Mat K₂ P') (b' : Mat 1 P')
    (j : (⟨2, ![R', P']⟩ : Shape).Idx) (i : (⟨2, ![R, P]⟩ : Shape).Idx)
    (hf : ∀ k : Fin K₁, f' (ix2 (j 0) k) = f (ix2 (i 0) k)) (ha : ∀ k : Fin K₂, a' (ix2 (j 0) k) = a (ix2 (i 0) k))
    (h₁ : ∀ k : Fin K₁, w₁' (ix2 k (j 1)) = w₁ (ix2 k (i 1))) (h₂ : ∀ k : Fin K₂, w₂' (ix2 k (j 1)) = w₂ (ix2 k (i 1)))
    (hb : b' (ix2 (0 : Fin 1) (j 1)) = b (ix2 (0 : Fin 1) (i 1))) :
    atom f' a' w₁' w₂' b' j = atom f a w₁ w₂ b i := by
  show max (mm f' w₁' j + mm a' w₂' j + b' (ix2 (0 : Fin 1) (j 1))) _ = max (mm f w₁ i + mm a w₂ i + b (ix2 (0 : Fin 1) (i 1))) _
  rw [mm_point f w₁ f' w₁' j i hf h₁, mm_point a w₂ a' w₂' j i ha h₂, hb]

/-! ## The two spellings of a product -/

section Spellings

variable (wf : DotDims.WF (⟨2, ![R, K]⟩ : Shape) ⟨2, ![K, P]⟩ ⟨2, ![R, P]⟩ [1] [0] [0] [1] [] [])

/-- The matrix unit's product into a splat of zeros is the product. -/
theorem matmul_eq_mm {φ₁ φ₂ : FTy} (prec : Option ContractPrecision) (a : FVec Ideal ⟨2, ![R, K]⟩ φ₁) (w : FVec Ideal ⟨2, ![K, P]⟩ φ₂) :
    matmul (PlainProduct.plainDims R K P wf) prec a w (constant ⟨2, ![R, P]⟩ .f32 0x00000000#32) = mm a w := by
  funext i
  obtain ⟨r, c, rfl⟩ : ∃ (r : Fin R) (c : Fin P), i = ix2 r c := ⟨i 0, i 1, eq_ix2 i⟩
  exact PlainProduct.matmul_zero_apply wf prec a w r c

/-- The host's `dot_general` is the product. -/
theorem dotGeneral_eq_mm {φ₁ φ₂ : FTy} (prec : Option ContractPrecision) (a : FVec Ideal ⟨2, ![R, K]⟩ φ₁) (w : FVec Ideal ⟨2, ![K, P]⟩ φ₂) :
    Host.dotGeneral (PlainProduct.plainDims R K P wf) prec a w = mm a w := by
  funext i
  obtain ⟨r, c, rfl⟩ : ∃ (r : Fin R) (c : Fin P), i = ix2 r c := ⟨i 0, i 1, eq_ix2 i⟩
  exact PlainProduct.dotGeneral_apply wf prec a w r c

end Spellings

/-! ## The two spellings of the rectifier -/

/-- Against a splat of the scalar zero. -/
theorem maximumf_splat_zero (z : FVec Ideal ⟨2, ![R, P]⟩ .f32) :
    maximumf z (broadcast ⟨2, ![R, P]⟩ (Scalar.ofBits (F := Ideal) .f32 0x00000000#32)) = relu z := rfl

/-- Against the rank-0 zero constant broadcast. -/
theorem maximumf_bcast_zero (z : FVec Ideal ⟨2, ![R, P]⟩ .f32) (h : (⟨0, ![]⟩ : Shape).BroadcastsInDim ⟨2, ![R, P]⟩ ![]) :
    maximumf z (broadcastInDim ⟨2, ![R, P]⟩ ![] h (constant (F := Ideal) ⟨0, ![]⟩ .f32 0x00000000#32)) = relu z := by
  funext i
  rw [maximumf_apply, relu_apply]
  refine congrArg (max (z i)) ?_
  exact (broadcastInDim_apply _ h _ i (fun a => a.elim0) (fun a => a.elim0)).trans (constant_apply _ _)

end Mpnn

end
-- ==== Proof.BondInit.lean ====
/-
  The first region: the initial hidden state and the first messages, as whole arrays.

  The region walks the 262144 bond rows in 128 blocks of 2048 rows. At point t it multiplies rows 2048·t … 2048·t+2047
  of the bond features by the whole weight matrix and writes the product back to the same rows of the hidden state, and
  its rectification to the same rows of the messages. A row of a matrix product depends on the same row of the left
  factor only, so what point t writes back is block t of the product of the WHOLE feature matrix with the weights
  (respectively of its rectification); the 128 blocks tile the array, so after the region the two arrays hold
  f_bonds · W_i and relu (f_bonds · W_i).
-/
import proofs.«139782_j41394894799199_2_alg».proof.Proof.Gen.KernelIdeal.Frame
import proofs.«139782_j41394894799199_2_alg».proof.Proof.LibBondLayers

set_option maxRecDepth 16384

noncomputable section

namespace Cert.KernelIdeal.BondInit

open Cert.KernelIdeal Cert.KernelIdeal.Gen
open Idealize.ShloMosaic Idealize.ShloMosaic.TcCoe Idealize.ShloMosaic.ValueIdx Idealize.SL.Sem Mpnn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The body's two stored values -/

/-- The product stored to the hidden state's block. -/
theorem pay1_eq (x0 : Vec Ideal S2048x147 .f32) (x1 : Vec Ideal S147x256 .f32) : k0_pay1 x0 x1 = mm x0 x1 := by
  unfold k0_pay1
  exact matmul_eq_mm dot_S2048x147_S147x256_S2048x256_1_0_0_1_n_n.wf none _ _

/-- Its rectification, stored to the messages' block. -/
theorem pay2_eq (x0 : Vec Ideal S2048x147 .f32) (x1 : Vec Ideal S147x256 .f32) : k0_pay2 x0 x1 = relu (mm x0 x1) := by
  unfold k0_pay2
  show maximumf (k0_pay1 x0 x1) (broadcast S2048x256 (Scalar.ofBits (F := Ideal) .f32 0x00000000#32)) = _
  rw [pay1_eq]
  exact maximumf_splat_zero _

/-! ## The index maps, decided over the 128 points -/

theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0
    ∧ win0_3.index t (0 : Fin 2) = win0_2.index t (0 : Fin 2) ∧ win0_3.index t (1 : Fin 2) = 0 :=
  (by decide +kernel : ∀ t : Fin grid0.N, _)

/-- Every block of 2048 rows is some point's. -/
theorem idx_onto : ∀ q : Fin 128, ∃ t : Fin cfg0.N, win0_2.index t (0 : Fin 2) = q.val :=
  (by decide +kernel : ∀ q : Fin 128, ∃ t : Fin grid0.N, win0_2.index t (0 : Fin 2) = q.val)

/-! ## What a point writes back -/

/-- WHAT POINT t WRITES BACK to the hidden state is block t of the whole product. -/
theorem flushed2_eq (c : Dev nD) (t : Fin cfg0.N) :
    (dat0 V c).flushed 2 t = ((cfg0.win 2).blk t).view.read (Elt Ideal) (mm (V c main_arg1) (V c main_arg2)) := by
  show (cfg0.win 2).cut (grid0.coords t) ((dat0 V c).after 2 t) = _
  rw [after0_2]
  unfold out0_2
  rw [View.canon_unit_zero hz]
  simp only [View.ld_unit_zero (S := S2048x147) hz, View.ld_unit_zero (S := S147x256) hz]
  rw [pay1_eq]
  obtain ⟨e0, e1, e2, e3, e4, e5, e6⟩ := idx_facts t
  funext j
  show mm (iblk0 V c 0 t) (iblk0 V c 1 t) j = mm (V c main_arg1) (V c main_arg2) (((cfg0.win 2).blk t).view.emb j)
  refine mm_point _ _ _ _ j _ (fun k => ?_) (fun k => ?_)
  · show V c main_arg1 (((cfg0.win 0).blk t).view.emb (ix2 (j 0) k)) = V c main_arg1 (ix2 ((((cfg0.win 2).blk t).view.emb j) 0) k)
    refine congrArg (V c main_arg1) (funext fun a => Fin.ext ?_)
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 147 + 1 * k.val = k.val; omega
  · show V c main_arg2 (((cfg0.win 1).blk t).view.emb (ix2 k (j 1))) = V c main_arg2 (ix2 k ((((cfg0.win 2).blk t).view.emb j) 1))
    refine congrArg (V c main_arg2) (funext fun a => Fin.ext ?_)
    match a with
    | ⟨0, _⟩ => show win0_1.index t (0 : Fin 2) * 147 + 1 * k.val = k.val; omega
    | ⟨1, _⟩ => show win0_1.index t (1 : Fin 2) * 256 + 1 * (j 1).val = win0_2.index t (1 : Fin 2) * 256 + 1 * (j 1).val; omega

/-- WHAT POINT t WRITES BACK to the messages is block t of the rectified whole product. -/
theorem flushed3_eq (c : Dev nD) (t : Fin cfg0.N) :
    (dat0 V c).flushed 3 t = ((cfg0.win 3).blk t).view.read (Elt Ideal) (relu (mm (V c main_arg1) (V c main_arg2))) := by
  show (cfg0.win 3).cut (grid0.coords t) ((dat0 V c).after 3 t) = _
  rw [after0_3]
  unfold out0_3
  rw [View.canon_unit_zero hz]
  simp only [View.ld_unit_zero (S := S2048x147) hz, View.ld_unit_zero (S := S147x256) hz]
  rw [pay2_eq]
  obtain ⟨e0, e1, e2, e3, e4, e5, e6⟩ := idx_facts t
  funext j
  show relu (mm (iblk0 V c 0 t) (iblk0 V c 1 t)) j = relu (mm (V c main_arg1) (V c main_arg2)) (((cfg0.win 3).blk t).view.emb j)
  rw [relu_apply, relu_apply]
  refine congrArg (max · _) ?_
  refine mm_point _ _ _ _ j _ (fun k => ?_) (fun k => ?_)
  · show V c main_arg1 (((cfg0.win 0).blk t).view.emb (ix2 (j 0) k)) = V c main_arg1 (ix2 ((((cfg0.win 3).blk t).view.emb j) 0) k)
    refine congrArg (V c main_arg1) (funext fun a => Fin.ext ?_)
    match a with
    | ⟨0, _⟩ => show win0_0.index t (0 : Fin 2) * 2048 + 1 * (j 0).val = win0_3.index t (0 : Fin 2) * 2048 + 1 * (j 0).val; omega
    | ⟨1, _⟩ => show win0_0.index t (1 : Fin 2) * 147 + 1 * k.val = k.val; omega
  · show V c main_arg2 (((cfg0.win 1).blk t).view.emb (ix2 k (j 1))) = V c main_arg2 (ix2 k ((((cfg0.win 3).blk t).view.emb j) 1))
    refine congrArg (V c main_arg2) (funext fun a => Fin.ext ?_)
    match a with
    | ⟨0, _⟩ => show win0_1.index t (0 : Fin 2) * 147 + 1 * k.val = k.val; omega
    | ⟨1, _⟩ => show win0_1.index t (1 : Fin 2) * 256 + 1 * (j 1).val = win0_3.index t (1 : Fin 2) * 256 + 1 * (j 1).val; omega

/-! ## The blocks tile the arrays -/

theorem mem_blk2 (t : Fin cfg0.N) (i : S262144x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v0_0).slice (win0_2.rect t)).set ↔ _
  rw [View.set_slice_whole, Rect.mem_set_unit]
  exact Iff.rfl

theorem mem_blk3 (t : Fin cfg0.N) (i : S262144x256.Idx) :
    i ∈ ((cfg0.win 3).blk t).view.set ↔ ∀ a : Fin 2, win0_3.index t a * S2048x256.size a ≤ (i a).val ∧ (i a).val < win0_3.index t a * S2048x256.size a + S2048x256.size a := by
  show i ∈ ((View.whole main_v0_1).slice (win0_3.rect t)).set ↔ _
  rw [View.set_slice_whole, Rect.mem_set_unit]
  exact Iff.rfl

/-- Row r lies in the block of point r / 2048. -/
theorem cover2 (i : S262144x256.Idx) : ∃ t : Fin cfg0.N, (cfg0.win 2).flush t = true ∧ i ∈ ((cfg0.win 2).blk t).view.set := by
  have hi0 : (i 0).val < 262144 := (i 0).isLt
  have hi1 : (i 1).val < 256 := (i 1).isLt
  obtain ⟨t, ht⟩ := idx_onto ⟨(i 0).val / 2048, by omega⟩
  obtain ⟨e0, e1, e2, e3, e4, e5, e6⟩ := idx_facts t
  have q0 : win0_2.index t (0 : Fin 2) = (i 0).val / 2048 := ht
  refine ⟨t, flush0_2 t, ?_⟩
  rw [mem_blk2]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 256 ≤ (i 1).val ∧ (i 1).val < win0_2.index t (1 : Fin 2) * 256 + 256; omega

theorem cover3 (i : S262144x256.Idx) : ∃ t : Fin cfg0.N, (cfg0.win 3).flush t = true ∧ i ∈ ((cfg0.win 3).blk t).view.set := by
  have hi0 : (i 0).val < 262144 := (i 0).isLt
  have hi1 : (i 1).val < 256 := (i 1).isLt
  obtain ⟨t, ht⟩ := idx_onto ⟨(i 0).val / 2048, by omega⟩
  obtain ⟨e0, e1, e2, e3, e4, e5, e6⟩ := idx_facts t
  have q0 : win0_2.index t (0 : Fin 2) = (i 0).val / 2048 := ht
  refine ⟨t, flush0_3 t, ?_⟩
  rw [mem_blk3]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 256 ≤ (i 1).val ∧ (i 1).val < win0_3.index t (1 : Fin 2) * 256 + 256; omega

/-! ## The arrays after the region -/

/-- The hidden state after the region: the whole product. -/
theorem final2 (c : Dev nD) : (dat0 V c).arrAt 2 cfg0.N = mm (V c main_arg1) (V c main_arg2) :=
  (dat0 V c).arrAt_eq_of_cover 2 _ (fun t _ => flushed2_eq V c t) cover2

/-- The messages after the region: its rectification. -/
theorem final3 (c : Dev nD) : (dat0 V c).arrAt 3 cfg0.N = relu (mm (V c main_arg1) (V c main_arg2)) :=
  (dat0 V c).arrAt_eq_of_cover 3 _ (fun t _ => flushed3_eq V c t) cover3

end Cert.KernelIdeal.BondInit

end
-- ==== Proof.MessageRound1.lean ====
/-
  The first message round as a whole array.

  The region walks the 262144 bond rows in 64 blocks of 4096 rows. At point t it multiplies rows 4096·t … 4096·t+4095 of
  the incoming sums by the whole 256×256 weight matrix, adds the same rows of the initial hidden state, rectifies,
  and writes the result back to the same rows of the new messages. A row of a product depends on the same row of the
  left factor only and the sum and the rectifier are entrywise, so what point t writes back is block t of
  relu (inp + m · W_m) of the WHOLE arrays; the 64 blocks tile the array.
-/
import proofs.«139782_j41394894799199_2_alg».proof.Proof.Gen.KernelIdeal.Frame
import proofs.«139782_j41394894799199_2_alg».proof.Proof.LibBondLayers

set_option maxRecDepth 16384

noncomputable section

namespace Cert.KernelIdeal.Round1

open Cert.KernelIdeal Cert.KernelIdeal.Gen
open Idealize.ShloMosaic Idealize.ShloMosaic.TcCoe Idealize.ShloMosaic.ValueIdx Idealize.SL.Sem Mpnn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value: the bond update of its three loaded blocks. -/
theorem pay_eq (v0 : Vec Ideal S4096x256 .bf16) (v2 : Vec Ideal S256x256 .f32) (v5 : Vec Ideal S4096x256 .f32) :
    k1_pay1 v0 v2 v5 = step v5 v0 v2 := by
  unfold k1_pay1
  show maximumf (F := Ideal) (addf (shapeCast S4096x256 v5 shapeCasts_S4096x256_S4096x256)
      (matmul dot_S4096x256_S256x256_S4096x256_1_0_0_1_n_n none (shapeCast S4096x256 v0 shapeCasts_S4096x256_S4096x256)
        (truncf .bf16 v2 bitsLt_bf16_f32) (constant S4096x256 .f32 0x00000000#32)))
      (broadcast S4096x256 (Scalar.ofBits (F := Ideal) .f32 0x00000000#32)) = _
  rw [shapeCast_self, shapeCast_self, maximumf_splat_zero]
  unfold step
  refine congrArg relu (funext fun i => ?_)
  rw [addf_apply]
  exact congrArg (v5 i + ·) (congrFun (matmul_eq_mm dot_S4096x256_S256x256_S4096x256_1_0_0_1_n_n.wf none v0 (truncf .bf16 v2 bitsLt_bf16_f32)) i)

/-! ## The index maps, decided over the 64 points -/

theorem idx_facts : ∀ t : Fin cfg1.N,
    win1_0.index t (0 : Fin 2) = win1_3.index t (0 : Fin 2) ∧ win1_0.index t (1 : Fin 2) = 0
    ∧ win1_1.index t (0 : Fin 2) = win1_3.index t (0 : Fin 2) ∧ win1_1.index t (1 : Fin 2) = 0
    ∧ win1_2.index t (0 : Fin 2) = 0 ∧ win1_2.index t (1 : Fin 2) = 0
    ∧ win1_3.index t (1 : Fin 2) = 0 :=
  (by decide +kernel : ∀ t : Fin grid1.N, _)

/-- Every block of 4096 rows is some point's. -/
theorem idx_onto : ∀ q : Fin 64, ∃ t : Fin cfg1.N, win1_3.index t (0 : Fin 2) = q.val :=
  (by decide +kernel : ∀ q : Fin 64, ∃ t : Fin grid1.N, win1_3.index t (0 : Fin 2) = q.val)

/-! ## What a point writes back -/

/-- WHAT POINT t WRITES BACK is block t of the bond update of the whole arrays. -/
theorem flushed_eq (c : Dev nD) (t : Fin cfg1.N) :
    (dat1 V c).flushed 3 t
      = ((cfg1.win 3).blk t).view.read (Elt Ideal) (step (V c main_v0_0) (V c main_v26) (V c main_arg3)) := by
  show (cfg1.win 3).cut (grid1.coords t) ((dat1 V c).after 3 t) = _
  rw [after1_3]
  unfold out1_3
  rw [View.canon_unit_zero hz]
  simp only [View.ld_unit_zero (S := S4096x256) hz, View.ld_unit_zero (S := S256x256) hz]
  rw [pay_eq]
  obtain ⟨e0, e1, e2, e3, e4, e5, e6⟩ := idx_facts t
  funext j
  show step (iblk1 V c 0 t) (iblk1 V c 1 t) (iblk1 V c 2 t) j
    = step (V c main_v0_0) (V c main_v26) (V c main_arg3) (((cfg1.win 3).blk t).view.emb j)
  refine step_point _ _ _ _ _ _ j _ ?_ (fun k => ?_) (fun k => ?_)
  · show V c main_v0_0 (((cfg1.win 0).blk t).view.emb j) = V c main_v0_0 (((cfg1.win 3).blk t).view.emb j)
    refine congrArg (V c main_v0_0) (funext fun a => Fin.ext ?_)
    match a with
    | ⟨0, _⟩ => show win1_0.index t (0 : Fin 2) * 4096 + 1 * (j 0).val = win1_3.index t (0 : Fin 2) * 4096 + 1 * (j 0).val; omega
    | ⟨1, _⟩ => show win1_0.index t (1 : Fin 2) * 256 + 1 * (j 1).val = win1_3.index t (1 : Fin 2) * 256 + 1 * (j 1).val; omega
  · show V c main_v26 (((cfg1.win 1).blk t).view.emb (ix2 (j 0) k)) = V c main_v26 (ix2 ((((cfg1.win 3).blk t).view.emb j) 0) k)
    refine congrArg (V c main_v26) (funext fun a => Fin.ext ?_)
    match a with
    | ⟨0, _⟩ => show win1_1.index t (0 : Fin 2) * 4096 + 1 * (j 0).val = win1_3.index t (0 : Fin 2) * 4096 + 1 * (j 0).val; omega
    | ⟨1, _⟩ => show win1_1.index t (1 : Fin 2) * 256 + 1 * k.val = k.val; omega
  · show V c main_arg3 (((cfg1.win 2).blk t).view.emb (ix2 k (j 1))) = V c main_arg3 (ix2 k ((((cfg1.win 3).blk t).view.emb j) 1))
    refine congrArg (V c main_arg3) (funext fun a => Fin.ext ?_)
    match a with
    | ⟨0, _⟩ => show win1_2.index t (0 : Fin 2) * 256 + 1 * k.val = k.val; omega
    | ⟨1, _⟩ => show win1_2.index t (1 : Fin 2) * 256 + 1 * (j 1).val = win1_3.index t (1 : Fin 2) * 256 + 1 * (j 1).val; omega

/-! ## The blocks tile the array -/

theorem mem_blk (t : Fin cfg1.N) (i : S262144x256.Idx) :
    i ∈ ((cfg1.win 3).blk t).view.set ↔ ∀ a : Fin 2, win1_3.index t a * S4096x256.size a ≤ (i a).val ∧ (i a).val < win1_3.index t a * S4096x256.size a + S4096x256.size a := by
  show i ∈ ((View.whole main_v27).slice (win1_3.rect t)).set ↔ _
  rw [View.set_slice_whole, Rect.mem_set_unit]
  exact Iff.rfl

/-- Row r lies in the block of point r / 4096. -/
theorem cover (i : S262144x256.Idx) : ∃ t : Fin cfg1.N, (cfg1.win 3).flush t = true ∧ i ∈ ((cfg1.win 3).blk t).view.set := by
  have hi0 : (i 0).val < 262144 := (i 0).isLt
  have hi1 : (i 1).val < 256 := (i 1).isLt
  obtain ⟨t, ht⟩ := idx_onto ⟨(i 0).val / 4096, by omega⟩
  obtain ⟨e0, e1, e2, e3, e4, e5, e6⟩ := idx_facts t
  have q0 : win1_3.index t (0 : Fin 2) = (i 0).val / 4096 := ht
  refine ⟨t, flush1_3 t, ?_⟩
  rw [mem_blk]
  intro a
  match a with
  | ⟨0, _⟩ => show win1_3.index t (0 : Fin 2) * 4096 ≤ (i 0).val ∧ (i 0).val < win1_3.index t (0 : Fin 2) * 4096 + 4096; omega
  | ⟨1, _⟩ => show win1_3.index t (1 : Fin 2) * 256 ≤ (i 1).val ∧ (i 1).val < win1_3.index t (1 : Fin 2) * 256 + 256; omega

/-- The new messages after the region: the bond update of the whole arrays. -/
theorem final (c : Dev nD) : (dat1 V c).arrAt 3 cfg1.N = step (V c main_v0_0) (V c main_v26) (V c main_arg3) :=
  (dat1 V c).arrAt_eq_of_cover 3 _ (fun t _ => flushed_eq V c t) cover

end Cert.KernelIdeal.Round1

end
-- ==== Proof.MessageRound2.lean ====
/-
  The second message round as a whole array.

  The region walks the 262144 bond rows in 64 blocks of 4096 rows. At point t it multiplies rows 4096·t … 4096·t+4095 of
  the incoming sums by the whole 256×256 weight matrix, adds the same rows of the initial hidden state, rectifies,
  and writes the result back to the same rows of the new messages. A row of a product depends on the same row of the
  left factor only and the sum and the rectifier are entrywise, so what point t writes back is block t of
  relu (inp + m · W_m) of the WHOLE arrays; the 64 blocks tile the array.
-/
import proofs.«139782_j41394894799199_2_alg».proof.Proof.Gen.KernelIdeal.Frame
import proofs.«139782_j41394894799199_2_alg».proof.Proof.LibBondLayers

set_option maxRecDepth 16384

noncomputable section

namespace Cert.KernelIdeal.Round2

open Cert.KernelIdeal Cert.KernelIdeal.Gen
open Idealize.ShloMosaic Idealize.ShloMosaic.TcCoe Idealize.ShloMosaic.ValueIdx Idealize.SL.Sem Mpnn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value: the bond update of its three loaded blocks. -/
theorem pay_eq (v0 : Vec Ideal S4096x256 .bf16) (v2 : Vec Ideal S256x256 .f32) (v5 : Vec Ideal S4096x256 .f32) :
    k2_pay1 v0 v2 v5 = step v5 v0 v2 := by
  unfold k2_pay1
  show maximumf (F := Ideal) (addf (shapeCast S4096x256 v5 shapeCasts_S4096x256_S4096x256)
      (matmul dot_S4096x256_S256x256_S4096x256_1_0_0_1_n_n none (shapeCast S4096x256 v0 shapeCasts_S4096x256_S4096x256)
        (truncf .bf16 v2 bitsLt_bf16_f32) (constant S4096x256 .f32 0x00000000#32)))
      (broadcast S4096x256 (Scalar.ofBits (F := Ideal) .f32 0x00000000#32)) = _
  rw [shapeCast_self, shapeCast_self, maximumf_splat_zero]
  unfold step
  refine congrArg relu (funext fun i => ?_)
  rw [addf_apply]
  exact congrArg (v5 i + ·) (congrFun (matmul_eq_mm dot_S4096x256_S256x256_S4096x256_1_0_0_1_n_n.wf none v0 (truncf .bf16 v2 bitsLt_bf16_f32)) i)

/-! ## The index maps, decided over the 64 points -/

theorem idx_facts : ∀ t : Fin cfg2.N,
    win2_0.index t (0 : Fin 2) = win2_3.index t (0 : Fin 2) ∧ win2_0.index t (1 : Fin 2) = 0
    ∧ win2_1.index t (0 : Fin 2) = win2_3.index t (0 : Fin 2) ∧ win2_1.index t (1 : Fin 2) = 0
    ∧ win2_2.index t (0 : Fin 2) = 0 ∧ win2_2.index t (1 : Fin 2) = 0
    ∧ win2_3.index t (1 : Fin 2) = 0 :=
  (by decide +kernel : ∀ t : Fin grid2.N, _)

/-- Every block of 4096 rows is some point's. -/
theorem idx_onto : ∀ q : Fin 64, ∃ t : Fin cfg2.N, win2_3.index t (0 : Fin 2) = q.val :=
  (by decide +kernel : ∀ q : Fin 64, ∃ t : Fin grid2.N, win2_3.index t (0 : Fin 2) = q.val)

/-! ## What a point writes back -/

/-- WHAT POINT t WRITES BACK is block t of the bond update of the whole arrays. -/
theorem flushed_eq (c : Dev nD) (t : Fin cfg2.N) :
    (dat2 V c).flushed 3 t
      = ((cfg2.win 3).blk t).view.read (Elt Ideal) (step (V c main_v0_0) (V c main_v53) (V c main_arg3)) := by
  show (cfg2.win 3).cut (grid2.coords t) ((dat2 V c).after 3 t) = _
  rw [after2_3]
  unfold out2_3
  rw [View.canon_unit_zero hz]
  simp only [View.ld_unit_zero (S := S4096x256) hz, View.ld_unit_zero (S := S256x256) hz]
  rw [pay_eq]
  obtain ⟨e0, e1, e2, e3, e4, e5, e6⟩ := idx_facts t
  funext j
  show step (iblk2 V c 0 t) (iblk2 V c 1 t) (iblk2 V c 2 t) j
    = step (V c main_v0_0) (V c main_v53) (V c main_arg3) (((cfg2.win 3).blk t).view.emb j)
  refine step_point _ _ _ _ _ _ j _ ?_ (fun k => ?_) (fun k => ?_)
  · show V c main_v0_0 (((cfg2.win 0).blk t).view.emb j) = V c main_v0_0 (((cfg2.win 3).blk t).view.emb j)
    refine congrArg (V c main_v0_0) (funext fun a => Fin.ext ?_)
    match a with
    | ⟨0, _⟩ => show win2_0.index t (0 : Fin 2) * 4096 + 1 * (j 0).val = win2_3.index t (0 : Fin 2) * 4096 + 1 * (j 0).val; omega
    | ⟨1, _⟩ => show win2_0.index t (1 : Fin 2) * 256 + 1 * (j 1).val = win2_3.index t (1 : Fin 2) * 256 + 1 * (j 1).val; omega
  · show V c main_v53 (((cfg2.win 1).blk t).view.emb (ix2 (j 0) k)) = V c main_v53 (ix2 ((((cfg2.win 3).blk t).view.emb j) 0) k)
    refine congrArg (V c main_v53) (funext fun a => Fin.ext ?_)
    match a with
    | ⟨0, _⟩ => show win2_1.index t (0 : Fin 2) * 4096 + 1 * (j 0).val = win2_3.index t (0 : Fin 2) * 4096 + 1 * (j 0).val; omega
    | ⟨1, _⟩ => show win2_1.index t (1 : Fin 2) * 256 + 1 * k.val = k.val; omega
  · show V c main_arg3 (((cfg2.win 2).blk t).view.emb (ix2 k (j 1))) = V c main_arg3 (ix2 k ((((cfg2.win 3).blk t).view.emb j) 1))
    refine congrArg (V c main_arg3) (funext fun a => Fin.ext ?_)
    match a with
    | ⟨0, _⟩ => show win2_2.index t (0 : Fin 2) * 256 + 1 * k.val = k.val; omega
    | ⟨1, _⟩ => show win2_2.index t (1 : Fin 2) * 256 + 1 * (j 1).val = win2_3.index t (1 : Fin 2) * 256 + 1 * (j 1).val; omega

/-! ## The blocks tile the array -/

theorem mem_blk (t : Fin cfg2.N) (i : S262144x256.Idx) :
    i ∈ ((cfg2.win 3).blk t).view.set ↔ ∀ a : Fin 2, win2_3.index t a * S4096x256.size a ≤ (i a).val ∧ (i a).val < win2_3.index t a * S4096x256.size a + S4096x256.size a := by
  show i ∈ ((View.whole main_v54).slice (win2_3.rect t)).set ↔ _
  rw [View.set_slice_whole, Rect.mem_set_unit]
  exact Iff.rfl

/-- Row r lies in the block of point r / 4096. -/
theorem cover (i : S262144x256.Idx) : ∃ t : Fin cfg2.N, (cfg2.win 3).flush t = true ∧ i ∈ ((cfg2.win 3).blk t).view.set := by
  have hi0 : (i 0).val < 262144 := (i 0).isLt
  have hi1 : (i 1).val < 256 := (i 1).isLt
  obtain ⟨t, ht⟩ := idx_onto ⟨(i 0).val / 4096, by omega⟩
  obtain ⟨e0, e1, e2, e3, e4, e5, e6⟩ := idx_facts t
  have q0 : win2_3.index t (0 : Fin 2) = (i 0).val / 4096 := ht
  refine ⟨t, flush2_3 t, ?_⟩
  rw [mem_blk]
  intro a
  match a with
  | ⟨0, _⟩ => show win2_3.index t (0 : Fin 2) * 4096 ≤ (i 0).val ∧ (i 0).val < win2_3.index t (0 : Fin 2) * 4096 + 4096; omega
  | ⟨1, _⟩ => show win2_3.index t (1 : Fin 2) * 256 ≤ (i 1).val ∧ (i 1).val < win2_3.index t (1 : Fin 2) * 256 + 256; omega

/-- The new messages after the region: the bond update of the whole arrays. -/
theorem final (c : Dev nD) : (dat2 V c).arrAt 3 cfg2.N = step (V c main_v0_0) (V c main_v53) (V c main_arg3) :=
  (dat2 V c).arrAt_eq_of_cover 3 _ (fun t _ => flushed_eq V c t) cover

end Cert.KernelIdeal.Round2

end
-- ==== Proof.AtomLayer.lean ====
/-
  The atom layer as a whole array.

  The region walks the 65536 atom rows in 32 blocks of 2048 rows. At point t it multiplies rows 2048·t … 2048·t+2047 of
  the atom features by the first 133 rows of the weights and the same rows of the aggregated messages by the last 256
  rows, adds the two products and the bias row (broadcast over the rows), rectifies, and writes the result back to the
  same rows of the atom states. Each entry depends on one row of each left factor, so what point t writes back is
  block t of the layer of the WHOLE arrays; the 32 blocks tile the array.
-/
import proofs.«139782_j41394894799199_2_alg».proof.Proof.Gen.KernelIdeal.Frame
import proofs.«139782_j41394894799199_2_alg».proof.Proof.LibBondLayers

set_option maxRecDepth 16384

noncomputable section

namespace Cert.KernelIdeal.AtomLayer

open Cert.KernelIdeal Cert.KernelIdeal.Gen
open Idealize.ShloMosaic Idealize.ShloMosaic.TcCoe Idealize.ShloMosaic.ValueIdx Idealize.SL.Sem Mpnn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value: the atom layer of its five loaded blocks. -/
theorem pay_eq (v0 : Vec Ideal S2048x133 .f32) (v2 : Vec Ideal S2048x256 .f32) (v5 : Vec Ideal S133x256 .f32)
    (v8 : Vec Ideal S256x256 .f32) (v14 : Vec Ideal S1x256 .f32) :
    k3_pay1 v0 v2 v5 v8 v14 = atom v0 v2 v5 v8 v14 := by
  unfold k3_pay1
  show maximumf (F := Ideal) (addf (addf
        (matmul dot_S2048x133_S133x256_S2048x256_1_0_0_1_n_n none (truncf .bf16 v0 bitsLt_bf16_f32)
          (truncf .bf16 (shapeCast S133x256 v5 shapeCasts_S133x256_S133x256) bitsLt_bf16_f32) (constant S2048x256 .f32 0x00000000#32))
        (matmul dot_S2048x256_S256x256_S2048x256_1_0_0_1_n_n none (truncf .bf16 (shapeCast S2048x256 v2 shapeCasts_S2048x256_S2048x256) bitsLt_bf16_f32)
          (truncf .bf16 (shapeCast S256x256 v8 shapeCasts_S256x256_S256x256) bitsLt_bf16_f32) (constant S2048x256 .f32 0x00000000#32)))
        (broadcastTo S2048x256 (shapeCast S1x256 v14 shapeCasts_S1x256_S1x256) broadcasts_S1x256_S2048x256))
      (broadcast S2048x256 (Scalar.ofBits (F := Ideal) .f32 0x00000000#32)) = _
  rw [shapeCast_self, shapeCast_self, shapeCast_self, shapeCast_self, maximumf_splat_zero]
  unfold atom
  refine congrArg relu (funext fun i => ?_)
  obtain ⟨r, c, rfl⟩ : ∃ (r : Fin 2048) (c : Fin 256), i = ix2 r c := ⟨i 0, i 1, eq_ix2 i⟩
  rw [addf_apply, addf_apply, broadcastTo_1b_ab_apply v14 broadcasts_S1x256_S2048x256 r c]
  refine congr (congrArg HAdd.hAdd (congr (congrArg HAdd.hAdd ?_) ?_)) rfl
  · exact congrFun (matmul_eq_mm dot_S2048x133_S133x256_S2048x256_1_0_0_1_n_n.wf none (truncf .bf16 v0 bitsLt_bf16_f32) (truncf .bf16 v5 bitsLt_bf16_f32)) (ix2 r c)
  · exact congrFun (matmul_eq_mm dot_S2048x256_S256x256_S2048x256_1_0_0_1_n_n.wf none (truncf .bf16 v2 bitsLt_bf16_f32) (truncf .bf16 v8 bitsLt_bf16_f32)) (ix2 r c)

/-! ## The index maps, decided over the 32 points -/

theorem idx_facts : ∀ t : Fin cfg3.N,
    win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (1 : Fin 2) = 0 :=
  (by decide +kernel : ∀ t : Fin grid3.N, _)

/-- Every block of 2048 rows is some point's. -/
theorem idx_onto : ∀ q : Fin 32, ∃ t : Fin cfg3.N, win3_5.index t (0 : Fin 2) = q.val :=
  (by decide +kernel : ∀ q : Fin 32, ∃ t : Fin grid3.N, win3_5.index t (0 : Fin 2) = q.val)

/-! ## What a point writes back -/

set_option maxHeartbeats 2000000 in
/-- WHAT POINT t WRITES BACK is block t of the atom layer of the whole arrays. -/
theorem flushed_eq (c : Dev nD) (t : Fin cfg3.N) :
    (dat3 V c).flushed 5 t
      = ((cfg3.win 5).blk t).view.read (Elt Ideal)
          (atom (V c main_arg0) (V c main_v63) (V c main_v64) (V c main_v65) (V c main_v66)) := by
  show (cfg3.win 5).cut (grid3.coords t) ((dat3 V c).after 5 t) = _
  rw [after3_5]
  unfold out3_5
  rw [View.canon_unit_zero hz]
  simp only [View.ld_unit_zero (S := S2048x133) hz, View.ld_unit_zero (S := S2048x256) hz, View.ld_unit_zero (S := S133x256) hz,
    View.ld_unit_zero (S := S256x256) hz, View.ld_unit_zero (S := S1x256) hz]
  rw [pay_eq]
  obtain ⟨e0, e1, e2, e3, e4, e5, e6, e7, e8, e9, e10⟩ := idx_facts t
  funext j
  show atom (iblk3 V c 0 t) (iblk3 V c 1 t) (iblk3 V c 2 t) (iblk3 V c 3 t) (iblk3 V c 4 t) j
    = atom (V c main_arg0) (V c main_v63) (V c main_v64) (V c main_v65) (V c main_v66) (((cfg3.win 5).blk t).view.emb j)
  refine atom_point _ _ _ _ _ _ _ _ _ _ j _ (fun k => ?_) (fun k => ?_) (fun k => ?_) (fun k => ?_) ?_
  · show V c main_arg0 (((cfg3.win 0).blk t).view.emb (ix2 (j 0) k)) = V c main_arg0 (ix2 ((((cfg3.win 5).blk t).view.emb j) 0) k)
    refine congrArg (V c main_arg0) (funext fun a => Fin.ext ?_)
    match a with
    | ⟨0, _⟩ => show win3_0.index t (0 : Fin 2) * 2048 + 1 * (j 0).val = win3_5.index t (0 : Fin 2) * 2048 + 1 * (j 0).val; omega
    | ⟨1, _⟩ => show win3_0.index t (1 : Fin 2) * 133 + 1 * k.val = k.val; omega
  · show V c main_v63 (((cfg3.win 1).blk t).view.emb (ix2 (j 0) k)) = V c main_v63 (ix2 ((((cfg3.win 5).blk t).view.emb j) 0) k)
    refine congrArg (V c main_v63) (funext fun a => Fin.ext ?_)
    match a with
    | ⟨0, _⟩ => show win3_1.index t (0 : Fin 2) * 2048 + 1 * (j 0).val = win3_5.index t (0 : Fin 2) * 2048 + 1 * (j 0).val; omega
    | ⟨1, _⟩ => show win3_1.index t (1 : Fin 2) * 256 + 1 * k.val = k.val; omega
  · show V c main_v64 (((cfg3.win 2).blk t).view.emb (ix2 k (j 1))) = V c main_v64 (ix2 k ((((cfg3.win 5).blk t).view.emb j) 1))
    refine congrArg (V c main_v64) (funext fun a => Fin.ext ?_)
    match a with
    | ⟨0, _⟩ => show win3_2.index t (0 : Fin 2) * 133 + 1 * k.val = k.val; omega
    | ⟨1, _⟩ => show win3_2.index t (1 : Fin 2) * 256 + 1 * (j 1).val = win3_5.index t (1 : Fin 2) * 256 + 1 * (j 1).val; omega
  · show V c main_v65 (((cfg3.win 3).blk t).view.emb (ix2 k (j 1))) = V c main_v65 (ix2 k ((((cfg3.win 5).blk t).view.emb j) 1))
    refine congrArg (V c main_v65) (funext fun a => Fin.ext ?_)
    match a with
    | ⟨0, _⟩ => show win3_3.index t (0 : Fin 2) * 256 + 1 * k.val = k.val; omega
    | ⟨1, _⟩ => show win3_3.index t (1 : Fin 2) * 256 + 1 * (j 1).val = win3_5.index t (1 : Fin 2) * 256 + 1 * (j 1).val; omega
  · show V c main_v66 (((cfg3.win 4).blk t).view.emb (ix2 (0 : Fin 1) (j 1))) = V c main_v66 (ix2 (0 : Fin 1) ((((cfg3.win 5).blk t).view.emb j) 1))
    refine congrArg (V c main_v66) (funext fun a => Fin.ext ?_)
    match a with
    | ⟨0, _⟩ => show win3_4.index t (0 : Fin 2) * 1 + 1 * 0 = 0; omega
    | ⟨1, _⟩ => show win3_4.index t (1 : Fin 2) * 256 + 1 * (j 1).val = win3_5.index t (1 : Fin 2) * 256 + 1 * (j 1).val; omega

/-! ## The blocks tile the array -/

theorem mem_blk (t : Fin cfg3.N) (i : S65536x256.Idx) :
    i ∈ ((cfg3.win 5).blk t).view.set ↔ ∀ a : Fin 2, win3_5.index t a * S2048x256.size a ≤ (i a).val ∧ (i a).val < win3_5.index t a * S2048x256.size a + S2048x256.size a := by
  show i ∈ ((View.whole main_v67).slice (win3_5.rect t)).set ↔ _
  rw [View.set_slice_whole, Rect.mem_set_unit]
  exact Iff.rfl

/-- Row r lies in the block of point r / 2048. -/
theorem cover (i : S65536x256.Idx) : ∃ t : Fin cfg3.N, (cfg3.win 5).flush t = true ∧ i ∈ ((cfg3.win 5).blk t).view.set := by
  have hi0 : (i 0).val < 65536 := (i 0).isLt
  have hi1 : (i 1).val < 256 := (i 1).isLt
  obtain ⟨t, ht⟩ := idx_onto ⟨(i 0).val / 2048, by omega⟩
  obtain ⟨e0, e1, e2, e3, e4, e5, e6, e7, e8, e9, e10⟩ := idx_facts t
  have q0 : win3_5.index t (0 : Fin 2) = (i 0).val / 2048 := ht
  refine ⟨t, flush3_5 t, ?_⟩
  rw [mem_blk]
  intro a
  match a with
  | ⟨0, _⟩ => show win3_5.index t (0 : Fin 2) * 2048 ≤ (i 0).val ∧ (i 0).val < win3_5.index t (0 : Fin 2) * 2048 + 2048; omega
  | ⟨1, _⟩ => show win3_5.index t (1 : Fin 2) * 256 ≤ (i 1).val ∧ (i 1).val < win3_5.index t (1 : Fin 2) * 256 + 256; omega

/-- The atom states after the region: the atom layer of the whole arrays. -/
theorem final (c : Dev nD) :
    (dat3 V c).arrAt 5 cfg3.N = atom (V c main_arg0) (V c main_v63) (V c main_v64) (V c main_v65) (V c main_v66) :=
  (dat3 V c).arrAt_eq_of_cover 5 _ (fun t _ => flushed_eq V c t) cover

end Cert.KernelIdeal.AtomLayer

end
-- ==== Proof.HostGlue.lean ====
/-
  The host operations that sit between the dense layers, named once.

  Between two dense layers the program gathers rows of the bond messages and sums them:

    * `agg`      for each atom, the sum of the messages of its (at most six) incoming bonds: a row gather by the
                  atom-to-bond table, a negative entry counting from the end, then a sum over the six gathered rows;
    * `msgIn`    for each bond, the aggregate at its source atom minus the message of its reverse bond: two more
                  row gathers and a difference;
    * `readout`  the per-molecule mean of the atom states: a scatter-add of the rows by molecule index, divided by the
                  scatter-added count of atoms (at least one).

  The kernel program and the reference apply these same operations to their own bond messages, so nothing about a
  gather or a scatter is needed: both programs' host stretches are instances of these three functions, and the
  comparison of the two programs reduces to the dense layers they are applied to.
-/
import proofs.«139782_j41394894799199_2_alg».proof.Proof.Gen.ReferenceIdeal
import Idealize.ShloMosaic.PureOps.Ideal

noncomputable section

namespace Cert.Glue

open Cert.ReferenceIdeal Cert.ReferenceIdeal.Facts₀ Cert.ReferenceIdeal.Facts Idealize.ShloMosaic Idealize.ShloMosaic.TcCoe

/-- The contents of a buffer of shape `s` and element type `e`, at the ideal values. -/
abbrev Arr (s : Shape) (e : EltTy) : Type := (⟨s, e⟩ : BufTy).Contents (Elt Ideal)

/-- The atom-to-bond table as gather indices: a negative entry counts from the end of the 262144 bonds. -/
def wrapAtomBonds (a2b : Arr S65536x6 .i32) : Arr S65536x6x1 .i32 :=
  broadcastInDim S65536x6x1 ![0, 1] bcast_S65536x6_S65536x6x1_0_1
    (select (cmpi .slt a2b (broadcastInDim S65536x6 ![] bcast_S_S65536x6 (constantI S_ 32 0#32)))
      (addi a2b (broadcastInDim S65536x6 ![] bcast_S_S65536x6 (constantI S_ 32 262144#32))) a2b)

/-- A per-bond table as gather indices: a negative entry counts from the end of `n` rows. -/
def wrapBonds (n : BitVec 32) (b : Arr S262144 .i32) : Arr S262144x1 .i32 :=
  broadcastInDim S262144x1 ![0] bcast_S262144_S262144x1_0
    (select (cmpi .slt b (broadcastInDim S262144 ![] bcast_S_S262144 (constantI S_ 32 0#32)))
      (addi b (broadcastInDim S262144 ![] bcast_S_S262144 (constantI S_ 32 n))) b)

/-- For each atom, the sum of the messages of its incoming bonds. -/
def agg (msg : Arr S262144x256 .f32) (a2b : Arr S65536x6 .i32) : Arr S65536x256 .f32 :=
  Host.reduceAdd (Host.gather gather_S262144x256_S65536x6x1_S65536x6x256_2_0_n_n_0_2_1256 msg (wrapAtomBonds a2b))
    (constant (F := Ideal) S_ .f32 0x00000000#32) reducesTo_S65536x6x256_S65536x256_d1 h_S_

/-- For each bond, the aggregate at its source atom minus the message of its reverse bond. -/
def msgIn (msg : Arr S262144x256 .f32) (a2b : Arr S65536x6 .i32) (b2a b2revb : Arr S262144 .i32) : Arr S262144x256 .f32 :=
  subf (F := Ideal) (φ := .f32) (Host.gather gather_S65536x256_S262144x1_S262144x256_1_0_n_n_0_1_1256 (agg msg a2b) (wrapBonds 65536#32 b2a))
    (Host.gather gather_S262144x256_S262144x1_S262144x256_1_0_n_n_0_1_1256 msg (wrapBonds 262144#32 b2revb))

/-- The per-molecule mean of the atom states. -/
def readout (h : Arr S65536x256 .f32) (mol : Arr S65536 .i32) : Arr S2048x256 .f32 :=
  Host.divf (F := Ideal) (φ := .f32)
    (Host.scatterAdd scatter_S2048x256_S65536x1_S65536x256_1_0_0_1
      (broadcastInDim S2048x256 ![] bcast_S_S2048x256 (constant (F := Ideal) S_ .f32 0x00000000#32))
      (broadcastInDim S65536x1 ![0] bcast_S65536_S65536x1_0 mol) h)
    (broadcastInDim S2048x256 ![0, 1] bcast_S2048x1_S2048x256_0_1
      (broadcastInDim S2048x1 ![0] bcast_S2048_S2048x1_0
        (maximumf (F := Ideal) (φ := .f32)
          (Host.scatterAdd scatter_S2048_S65536x1_S65536_n_0_0_1
            (broadcastInDim S2048 ![] bcast_S_S2048 (constant (F := Ideal) S_ .f32 0x00000000#32))
            (broadcastInDim S65536x1 ![0] bcast_S65536_S65536x1_0 mol)
            (broadcastInDim S65536 ![] bcast_S_S65536 (constant (F := Ideal) S_ .f32 0x3F800000#32)))
          (broadcastInDim S2048 ![] bcast_S_S2048 (constant (F := Ideal) S_ .f32 0x3F800000#32)))))

end Cert.Glue

end
-- ==== Proof.RefStages.lean ====
/-
  The reference, stage by stage, as dense layers joined by the shared host operations.

  The reference's generated stages name every operation's value as a function of the arguments. Read at the ideal
  values:

    * the initial hidden state is the product f_bonds · W_i, and the first messages its rectification;
    * each of the two rounds rectifies  inp + msgIn(messages) · W_m;
    * the atom layer multiplies the row-wise join [f_atoms | agg(messages)] by W_a, adds the bias and rectifies.
      A sum over the 389 joined columns is the sum over the first 133 plus the sum over the last 256 (a regrouping of
      a finite sum, valid on the extended reals), the join reads f_atoms on the first and the aggregate on the last,
      and W_a's first 133 rows and last 256 rows are its two slices: so the layer is  f_atoms · W_a[:133] +
      agg · W_a[133:] + b, the form in which the kernel computes it;
    * the result is the per-molecule mean of the atom layer.
-/
import proofs.«139782_j41394894799199_2_alg».proof.Proof.Gen.ReferenceIdeal.Read
import proofs.«139782_j41394894799199_2_alg».proof.Proof.LibBondLayers
import proofs.«139782_j41394894799199_2_alg».proof.Proof.HostGlue
import Idealize.ShloMosaic.Lib.ValueLayout

noncomputable section

namespace Cert.RefStages

open Cert.ReferenceIdeal Cert.ReferenceIdeal.Facts₀ Cert.ReferenceIdeal.Facts Cert.ReferenceIdeal.Read Cert.Glue Idealize.ShloMosaic Idealize.ShloMosaic.TcCoe Idealize.ShloMosaic.ValueIdx Mpnn

/-- The first 133 rows of the atom layer's weights. -/
abbrev S133x256 : Shape := ⟨2, ![133, 256]⟩

/-! ## The dense layers of the reference -/

theorem v0_eq (x1 : Arr S262144x147 .f32) (x2 : Arr S147x256 .f32) : val_main_v0 (F := Ideal) x1 x2 = mm x1 x2 :=
  dotGeneral_eq_mm dot_S262144x147_S147x256_S262144x256_1_0_0_1_n_n.wf none x1 x2

theorem v1_eq (x1 : Arr S262144x147 .f32) (x2 : Arr S147x256 .f32) : val_main_v1 (F := Ideal) x1 x2 = relu (mm x1 x2) := by
  unfold val_main_v1 val_main_call0_v0 val_main_call0_cst
  rw [v0_eq]
  exact maximumf_bcast_zero _ bcast_S_S262144x256

/-- A round of the reference from the hidden state `inp` and the incoming sums `mi`. -/
theorem bondRound_eq (inp mi : Arr S262144x256 .f32) (x3 : Arr S256x256 .f32) :
    maximumf (addf inp (Host.dotGeneral (φ₁ := .f32) (φ₂ := .f32) dot_S262144x256_S256x256_S262144x256_1_0_0_1_n_n none mi x3))
        (broadcastInDim S262144x256 ![] bcast_S_S262144x256 (constant (F := Ideal) S_ .f32 0x00000000#32))
      = step inp mi x3 := by
  rw [maximumf_bcast_zero _ bcast_S_S262144x256]
  unfold step
  refine congrArg relu (funext fun i => ?_)
  rw [addf_apply]
  exact congrArg (inp i + ·) (congrFun (dotGeneral_eq_mm dot_S262144x256_S256x256_S262144x256_1_0_0_1_n_n.wf none mi x3) i)

theorem v24_eq (x1 : Arr S262144x147 .f32) (x2 : Arr S147x256 .f32) (x6 : Arr S65536x6 .i32) (x7 : Arr S262144 .i32) (x8 : Arr S262144 .i32) :
    val_main_v24 (F := Ideal) x1 x2 x6 x7 x8 = msgIn (val_main_v1 x1 x2) x6 x7 x8 := rfl

theorem v27_eq (x1 : Arr S262144x147 .f32) (x2 : Arr S147x256 .f32) (x3 : Arr S256x256 .f32) (x6 : Arr S65536x6 .i32) (x7 : Arr S262144 .i32) (x8 : Arr S262144 .i32) :
    val_main_v27 (F := Ideal) x1 x2 x3 x6 x7 x8 = step (mm x1 x2) (val_main_v24 x1 x2 x6 x7 x8) x3 := by
  unfold val_main_v27 val_main_v26 val_main_v25 val_main_call1_v0 val_main_call1_cst
  rw [v0_eq]
  exact bondRound_eq _ _ _

theorem v50_eq (x1 : Arr S262144x147 .f32) (x2 : Arr S147x256 .f32) (x3 : Arr S256x256 .f32) (x6 : Arr S65536x6 .i32) (x7 : Arr S262144 .i32) (x8 : Arr S262144 .i32) :
    val_main_v50 (F := Ideal) x1 x2 x3 x6 x7 x8 = msgIn (val_main_v27 x1 x2 x3 x6 x7 x8) x6 x7 x8 := rfl

theorem v53_eq (x1 : Arr S262144x147 .f32) (x2 : Arr S147x256 .f32) (x3 : Arr S256x256 .f32) (x6 : Arr S65536x6 .i32) (x7 : Arr S262144 .i32) (x8 : Arr S262144 .i32) :
    val_main_v53 (F := Ideal) x1 x2 x3 x6 x7 x8 = step (mm x1 x2) (val_main_v50 x1 x2 x3 x6 x7 x8) x3 := by
  unfold val_main_v53 val_main_v52 val_main_v51 val_main_call2_v0 val_main_call2_cst
  rw [v0_eq]
  exact bondRound_eq _ _ _

theorem v61_eq (x1 : Arr S262144x147 .f32) (x2 : Arr S147x256 .f32) (x3 : Arr S256x256 .f32) (x6 : Arr S65536x6 .i32) (x7 : Arr S262144 .i32) (x8 : Arr S262144 .i32) :
    val_main_v61 (F := Ideal) x1 x2 x3 x6 x7 x8 = agg (val_main_v53 x1 x2 x3 x6 x7 x8) x6 := rfl

theorem v79_eq (x0 : Arr S65536x133 .f32) (x1 : Arr S262144x147 .f32) (x2 : Arr S147x256 .f32) (x3 : Arr S256x256 .f32) (x4 : Arr S389x256 .f32) (x5 : Arr S256 .f32) (x6 : Arr S65536x6 .i32) (x7 : Arr S262144 .i32) (x8 : Arr S262144 .i32) (x9 : Arr S65536 .i32) :
    val_main_v79 (F := Ideal) x0 x1 x2 x3 x4 x5 x6 x7 x8 x9 = readout (val_main_v67 x0 x1 x2 x3 x4 x5 x6 x7 x8) x9 := rfl

/-! ## The atom layer: the join split -/

/-- A sum over 389 columns is the sum over the first 133 plus the sum over the last 256. -/
theorem sum_split (f : Fin 389 → EReal) :
    ∑ k : Fin 389, f k = (∑ k : Fin 133, f ⟨k.val, by omega⟩) + ∑ k : Fin 256, f ⟨133 + k.val, by omega⟩ :=
  Fin.sum_univ_add (a := 133) (b := 256) f

/-- The atom layer of the reference — the join [fa | am] times W_a, plus the bias, rectified — is the layer on the
    two halves of W_a. -/
theorem atom_eq (fa : Arr S65536x133 .f32) (am : Arr S65536x256 .f32) (wa : Arr S389x256 .f32) (ba : Arr S256 .f32)
    (hs₁ : S389x256.Slices ![0, 0] S133x256) (hs₂ : S389x256.Slices ![133, 0] S256x256) (hc : S256.ShapeCasts S1x256) :
    maximumf (addf (Host.dotGeneral (φ₁ := .f32) (φ₂ := .f32) dot_S65536x389_S389x256_S65536x256_1_0_0_1_n_n none
          (concatenate S65536x389 1 [⟨S65536x133, fa⟩, ⟨S65536x256, am⟩] concatenates_S65536x133_S65536x256_S65536x389_d1) wa)
        (broadcastInDim S65536x256 ![0, 1] bcast_S1x256_S65536x256_0_1 (broadcastInDim S1x256 ![1] bcast_S256_S1x256_1 ba)))
        (broadcastInDim S65536x256 ![] bcast_S_S65536x256 (constant (F := Ideal) S_ .f32 0x00000000#32))
      = atom fa am (extractStridedSlice S133x256 ![0, 0] wa hs₁) (extractStridedSlice S256x256 ![133, 0] wa hs₂) (shapeCast S1x256 ba hc) := by
  rw [maximumf_bcast_zero _ bcast_S_S65536x256]
  unfold atom
  refine congrArg relu (funext fun i => ?_)
  obtain ⟨r, c, rfl⟩ : ∃ (r : Fin 65536) (c : Fin 256), i = ix2 r c := ⟨i 0, i 1, eq_ix2 i⟩
  have hd := PlainProduct.dotGeneral_apply (φ₁ := .f32) (φ₂ := .f32) dot_S65536x389_S389x256_S65536x256_1_0_0_1_n_n.wf none
    (concatenate S65536x389 1 [⟨S65536x133, fa⟩, ⟨S65536x256, am⟩] concatenates_S65536x133_S65536x256_S65536x389_d1 : Arr S65536x389 .f32) wa r c
  rw [addf_apply]
  refine (congrArg (· + _) (hd.trans (sum_split _))).trans ?_
  rw [mm_apply, mm_apply]
  refine congr (congrArg HAdd.hAdd (congr (congrArg HAdd.hAdd ?_) ?_)) ?_
  · refine Finset.sum_congr rfl fun k _ => ?_
    have hL : concatenate S65536x389 1 [⟨S65536x133, fa⟩, ⟨S65536x256, am⟩] concatenates_S65536x133_S65536x256_S65536x389_d1
          (ix2 r (⟨k.val, by omega⟩ : Fin 389)) = fa (ix2 r k) :=
      concatenate_pair_apply_left (t := S65536x389) (s₁ := S65536x133) (s₂ := S65536x256) (1 : Fin 2) fa am
        concatenates_S65536x133_S65536x256_S65536x389_d1 (ix2 r (⟨k.val, by omega⟩ : Fin 389)) rfl (ix2 r k)
        (fun b => by match b with | ⟨0, _⟩ => rfl | ⟨1, _⟩ => rfl)
    have hW : extractStridedSlice S133x256 ![0, 0] wa hs₁ (ix2 k c) = wa (ix2 (⟨k.val, by omega⟩ : Fin 389) c) :=
      extractStridedSlice_apply (s := S389x256) (t := S133x256) ![0, 0] wa hs₁ (ix2 k c) (ix2 (⟨k.val, by omega⟩ : Fin 389) c)
        (fun a => by
          match a with
          | ⟨0, _⟩ => show k.val = 0 + k.val; omega
          | ⟨1, _⟩ => show c.val = 0 + c.val; omega)
    exact congr (congrArg HMul.hMul hL) hW.symm
  · refine Finset.sum_congr rfl fun k _ => ?_
    have hR : concatenate S65536x389 1 [⟨S65536x133, fa⟩, ⟨S65536x256, am⟩] concatenates_S65536x133_S65536x256_S65536x389_d1
          (ix2 r (⟨133 + k.val, by omega⟩ : Fin 389)) = am (ix2 r k) :=
      concatenate_pair_apply_right (t := S65536x389) (s₁ := S65536x133) (s₂ := S65536x256) (1 : Fin 2) fa am
        concatenates_S65536x133_S65536x256_S65536x389_d1 (ix2 r (⟨133 + k.val, by omega⟩ : Fin 389)) rfl rfl (ix2 r k)
        (fun b hb => by match b with | ⟨0, _⟩ => rfl | ⟨1, _⟩ => exact absurd rfl hb)
        (by show k.val + 133 = 133 + k.val; omega)
    have hW : extractStridedSlice S256x256 ![133, 0] wa hs₂ (ix2 k c) = wa (ix2 (⟨133 + k.val, by omega⟩ : Fin 389) c) :=
      extractStridedSlice_apply (s := S389x256) (t := S256x256) ![133, 0] wa hs₂ (ix2 k c) (ix2 (⟨133 + k.val, by omega⟩ : Fin 389) c)
        (fun a => by
          match a with
          | ⟨0, _⟩ => show 133 + k.val = 133 + k.val; rfl
          | ⟨1, _⟩ => show c.val = 0 + c.val; omega)
    exact congr (congrArg HMul.hMul hR) hW.symm
  · have h1 : broadcastInDim S65536x256 ![0, 1] bcast_S1x256_S65536x256_0_1 (broadcastInDim S1x256 ![1] bcast_S256_S1x256_1 ba) (ix2 r c)
        = broadcastInDim S1x256 ![1] bcast_S256_S1x256_1 ba (ix2 (0 : Fin 1) c) :=
      broadcastInDim_apply _ bcast_S1x256_S65536x256_0_1 _ (ix2 r c) (ix2 (0 : Fin 1) c) fun ax => by
        match ax with
        | ⟨0, _⟩ => rfl
        | ⟨1, _⟩ => rfl
    have h2 : broadcastInDim S1x256 ![1] bcast_S256_S1x256_1 ba (ix2 (0 : Fin 1) c) = ba (ix1 c) :=
      broadcastInDim_apply _ bcast_S256_S1x256_1 ba (ix2 (0 : Fin 1) c) (ix1 c) fun ax => by
        match ax with
        | ⟨0, _⟩ => rfl
    have h3 : shapeCast S1x256 ba hc (ix2 (0 : Fin 1) c) = ba (ix1 c) :=
      shapeCast_apply ba hc _ _ (by
        rw [Shape.rowMajor_val_two, Shape.rowMajor_val_one]
        show c.val = 0 * 256 + c.val
        omega)
    exact (h1.trans h2).trans h3.symm

theorem v67_eq (x0 : Arr S65536x133 .f32) (x1 : Arr S262144x147 .f32) (x2 : Arr S147x256 .f32) (x3 : Arr S256x256 .f32) (x4 : Arr S389x256 .f32) (x5 : Arr S256 .f32) (x6 : Arr S65536x6 .i32) (x7 : Arr S262144 .i32) (x8 : Arr S262144 .i32)
    (hs₁ : S389x256.Slices ![0, 0] S133x256) (hs₂ : S389x256.Slices ![133, 0] S256x256) (hc : S256.ShapeCasts S1x256) :
    val_main_v67 (F := Ideal) x0 x1 x2 x3 x4 x5 x6 x7 x8
      = atom x0 (val_main_v61 x1 x2 x3 x6 x7 x8) (extractStridedSlice S133x256 ![0, 0] x4 hs₁)
          (extractStridedSlice S256x256 ![133, 0] x4 hs₂) (shapeCast S1x256 x5 hc) := by
  unfold val_main_v67 val_main_v66 val_main_v65 val_main_v64 val_main_v63 val_main_v62 val_main_call3_v0 val_main_call3_cst
  exact atom_eq _ _ _ _ hs₁ hs₂ hc

/-! ## The whole network as one function of the ten arguments -/

/-- The messages after initialisation. -/
def msg0 (x1 : Arr S262144x147 .f32) (x2 : Arr S147x256 .f32) : Arr S262144x256 .f32 := relu (mm x1 x2)

/-- The messages after one round. -/
def msg1 (x1 : Arr S262144x147 .f32) (x2 : Arr S147x256 .f32) (x3 : Arr S256x256 .f32) (x6 : Arr S65536x6 .i32) (x7 : Arr S262144 .i32) (x8 : Arr S262144 .i32) : Arr S262144x256 .f32 :=
  step (mm x1 x2) (msgIn (msg0 x1 x2) x6 x7 x8) x3

/-- The messages after two rounds. -/
def msg2 (x1 : Arr S262144x147 .f32) (x2 : Arr S147x256 .f32) (x3 : Arr S256x256 .f32) (x6 : Arr S65536x6 .i32) (x7 : Arr S262144 .i32) (x8 : Arr S262144 .i32) : Arr S262144x256 .f32 :=
  step (mm x1 x2) (msgIn (msg1 x1 x2 x3 x6 x7 x8) x6 x7 x8) x3

/-- The atom states. -/
def atomH (x0 : Arr S65536x133 .f32) (x1 : Arr S262144x147 .f32) (x2 : Arr S147x256 .f32) (x3 : Arr S256x256 .f32) (x4 : Arr S389x256 .f32) (x5 : Arr S256 .f32) (x6 : Arr S65536x6 .i32) (x7 : Arr S262144 .i32) (x8 : Arr S262144 .i32)
    (hs₁ : S389x256.Slices ![0, 0] S133x256) (hs₂ : S389x256.Slices ![133, 0] S256x256) (hc : S256.ShapeCasts S1x256) : Arr S65536x256 .f32 :=
  atom x0 (agg (msg2 x1 x2 x3 x6 x7 x8) x6) (extractStridedSlice S133x256 ![0, 0] x4 hs₁)
    (extractStridedSlice S256x256 ![133, 0] x4 hs₂) (shapeCast S1x256 x5 hc)

/-- The molecule vectors: the network's result. -/
def G (x0 : Arr S65536x133 .f32) (x1 : Arr S262144x147 .f32) (x2 : Arr S147x256 .f32) (x3 : Arr S256x256 .f32) (x4 : Arr S389x256 .f32) (x5 : Arr S256 .f32) (x6 : Arr S65536x6 .i32) (x7 : Arr S262144 .i32) (x8 : Arr S262144 .i32) (x9 : Arr S65536 .i32)
    (hs₁ : S389x256.Slices ![0, 0] S133x256) (hs₂ : S389x256.Slices ![133, 0] S256x256) (hc : S256.ShapeCasts S1x256) : Arr S2048x256 .f32 :=
  readout (atomH x0 x1 x2 x3 x4 x5 x6 x7 x8 hs₁ hs₂ hc) x9

theorem v1_msg0 (x1 : Arr S262144x147 .f32) (x2 : Arr S147x256 .f32) : val_main_v1 (F := Ideal) x1 x2 = msg0 x1 x2 := v1_eq x1 x2

theorem v27_msg1 (x1 : Arr S262144x147 .f32) (x2 : Arr S147x256 .f32) (x3 : Arr S256x256 .f32) (x6 : Arr S65536x6 .i32) (x7 : Arr S262144 .i32) (x8 : Arr S262144 .i32) : val_main_v27 (F := Ideal) x1 x2 x3 x6 x7 x8 = msg1 x1 x2 x3 x6 x7 x8 := by
  rw [v27_eq, v24_eq, v1_msg0]; rfl

theorem v53_msg2 (x1 : Arr S262144x147 .f32) (x2 : Arr S147x256 .f32) (x3 : Arr S256x256 .f32) (x6 : Arr S65536x6 .i32) (x7 : Arr S262144 .i32) (x8 : Arr S262144 .i32) : val_main_v53 (F := Ideal) x1 x2 x3 x6 x7 x8 = msg2 x1 x2 x3 x6 x7 x8 := by
  rw [v53_eq, v50_eq, v27_msg1]; rfl

/-- THE REFERENCE'S RESULT is the network's function of the arguments. -/
theorem ref_eq (x0 : Arr S65536x133 .f32) (x1 : Arr S262144x147 .f32) (x2 : Arr S147x256 .f32) (x3 : Arr S256x256 .f32) (x4 : Arr S389x256 .f32) (x5 : Arr S256 .f32) (x6 : Arr S65536x6 .i32) (x7 : Arr S262144 .i32) (x8 : Arr S262144 .i32) (x9 : Arr S65536 .i32)
    (hs₁ : S389x256.Slices ![0, 0] S133x256) (hs₂ : S389x256.Slices ![133, 0] S256x256) (hc : S256.ShapeCasts S1x256) :
    val_main_v79 (F := Ideal) x0 x1 x2 x3 x4 x5 x6 x7 x8 x9 = G x0 x1 x2 x3 x4 x5 x6 x7 x8 x9 hs₁ hs₂ hc := by
  rw [v79_eq, v67_eq x0 x1 x2 x3 x4 x5 x6 x7 x8 hs₁ hs₂ hc, v61_eq, v53_msg2]; rfl

end Cert.RefStages

end
-- ==== Proof.KernelStages.lean ====
/-
  The idealized kernel program, boundary by boundary.

  The program's run keeps the contents of every buffer at each of its nine boundaries: the launch, then alternately a
  region's exit and a host stretch's end. Reading forward from the launch:

    * after the first region the hidden state is f_bonds · W_i and the messages its rectification;
    * the first host stretch forms, from these messages and the three index tables, each bond's incoming sum;
    * the second region turns the hidden state, the incoming sums and W_m into the messages after one round;
    * the second stretch and the third region repeat this for the second round;
    * the third stretch aggregates the messages per atom and cuts W_a into its two halves and the bias into a row;
    * the fourth region is the atom layer, and the last stretch the per-molecule mean.

  A region rewrites only its output arrays and a host stretch only its own results, so every other buffer — the
  arguments, and the hidden state between the rounds — is carried unchanged from boundary to boundary. Composed, the
  result buffer at the last boundary holds the network's function of the ten arguments.
-/
import proofs.«139782_j41394894799199_2_alg».proof.Proof.Gen.KernelIdeal.Frame
import proofs.«139782_j41394894799199_2_alg».proof.Proof.BondInit
import proofs.«139782_j41394894799199_2_alg».proof.Proof.MessageRound1
import proofs.«139782_j41394894799199_2_alg».proof.Proof.MessageRound2
import proofs.«139782_j41394894799199_2_alg».proof.Proof.AtomLayer
import proofs.«139782_j41394894799199_2_alg».proof.Proof.HostGlue
import proofs.«139782_j41394894799199_2_alg».proof.Proof.RefStages
import Idealize.ShloMosaic.Lib.StableHlo.Run

set_option maxRecDepth 16384

noncomputable section

namespace Cert.KernelIdeal.Stages

open Cert.KernelIdeal Cert.KernelIdeal.Gen Cert.Glue
open Idealize.ShloMosaic Idealize.ShloMosaic.TcCoe Idealize.ShloMosaic.StableHlo Idealize.SL.Sem Mpnn

variable (m : (ℓ : Loc nD τ sig) → Buf (Elt Ideal) ℓ) (ρ : Dev nD → PrngReg)

/-- No operation of a host stretch writes the buffer at hand: each operation writes its own result buffer only. -/
macro "not_written " ops:ident : tactic => `(tactic|
  exact List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The buffers carried unchanged: the arguments, as far as each is read -/

theorem at1_arg3 (c : Dev nD) : W1 m ρ c (Proc.devRef .tc main_arg3) = m ((c : Thread nD τ).loc main_arg3) := W1_of_ne m ρ c main_arg3 (by decide)
theorem at2_arg3 (c : Dev nD) : W2 m ρ c (Proc.devRef .tc main_arg3) = m ((c : Thread nD τ).loc main_arg3) :=
  (StableHlo.after_of_forall_not_mem (b := Proc.devRef .tc main_arg3) _ _ (by not_written hostOps1)).trans (at1_arg3 m ρ c)
theorem at3_arg3 (c : Dev nD) : W3 m ρ c (Proc.devRef .tc main_arg3) = m ((c : Thread nD τ).loc main_arg3) := ((W3_arr m ρ c 2).trans (((dat1 (V2 m ρ) c).arrAt_in 2 rfl _).trans (A_eq1 (V2 m ρ) c 2))).trans (at2_arg3 m ρ c)
theorem at4_arg3 (c : Dev nD) : W4 m ρ c (Proc.devRef .tc main_arg3) = m ((c : Thread nD τ).loc main_arg3) :=
  (StableHlo.after_of_forall_not_mem (b := Proc.devRef .tc main_arg3) _ _ (by not_written hostOps2)).trans (at3_arg3 m ρ c)

theorem at1_arg6 (c : Dev nD) : W1 m ρ c (Proc.devRef .tc main_arg6) = m ((c : Thread nD τ).loc main_arg6) := W1_of_ne m ρ c main_arg6 (by decide)
theorem at2_arg6 (c : Dev nD) : W2 m ρ c (Proc.devRef .tc main_arg6) = m ((c : Thread nD τ).loc main_arg6) :=
  (StableHlo.after_of_forall_not_mem (b := Proc.devRef .tc main_arg6) _ _ (by not_written hostOps1)).trans (at1_arg6 m ρ c)
theorem at3_arg6 (c : Dev nD) : W3 m ρ c (Proc.devRef .tc main_arg6) = m ((c : Thread nD τ).loc main_arg6) := (W3_of_ne m ρ c main_arg6 (by decide)).trans (at2_arg6 m ρ c)
theorem at4_arg6 (c : Dev nD) : W4 m ρ c (Proc.devRef .tc main_arg6) = m ((c : Thread nD τ).loc main_arg6) :=
  (StableHlo.after_of_forall_not_mem (b := Proc.devRef .tc main_arg6) _ _ (by not_written hostOps2)).trans (at3_arg6 m ρ c)
theorem at5_arg6 (c : Dev nD) : W5 m ρ c (Proc.devRef .tc main_arg6) = m ((c : Thread nD τ).loc main_arg6) := (W5_of_ne m ρ c main_arg6 (by decide)).trans (at4_arg6 m ρ c)

theorem at1_arg7 (c : Dev nD) : W1 m ρ c (Proc.devRef .tc main_arg7) = m ((c : Thread nD τ).loc main_arg7) := W1_of_ne m ρ c main_arg7 (by decide)
theorem at2_arg7 (c : Dev nD) : W2 m ρ c (Proc.devRef .tc main_arg7) = m ((c : Thread nD τ).loc main_arg7) :=
  (StableHlo.after_of_forall_not_mem (b := Proc.devRef .tc main_arg7) _ _ (by not_written hostOps1)).trans (at1_arg7 m ρ c)
theorem at3_arg7 (c : Dev nD) : W3 m ρ c (Proc.devRef .tc main_arg7) = m ((c : Thread nD τ).loc main_arg7) := (W3_of_ne m ρ c main_arg7 (by decide)).trans (at2_arg7 m ρ c)

theorem at1_arg8 (c : Dev nD) : W1 m ρ c (Proc.devRef .tc main_arg8) = m ((c : Thread nD τ).loc main_arg8) := W1_of_ne m ρ c main_arg8 (by decide)
theorem at2_arg8 (c : Dev nD) : W2 m ρ c (Proc.devRef .tc main_arg8) = m ((c : Thread nD τ).loc main_arg8) :=
  (StableHlo.after_of_forall_not_mem (b := Proc.devRef .tc main_arg8) _ _ (by not_written hostOps1)).trans (at1_arg8 m ρ c)
theorem at3_arg8 (c : Dev nD) : W3 m ρ c (Proc.devRef .tc main_arg8) = m ((c : Thread nD τ).loc main_arg8) := (W3_of_ne m ρ c main_arg8 (by decide)).trans (at2_arg8 m ρ c)

theorem at1_arg0 (c : Dev nD) : W1 m ρ c (Proc.devRef .tc main_arg0) = m ((c : Thread nD τ).loc main_arg0) := W1_of_ne m ρ c main_arg0 (by decide)
theorem at2_arg0 (c : Dev nD) : W2 m ρ c (Proc.devRef .tc main_arg0) = m ((c : Thread nD τ).loc main_arg0) :=
  (StableHlo.after_of_forall_not_mem (b := Proc.devRef .tc main_arg0) _ _ (by not_written hostOps1)).trans (at1_arg0 m ρ c)
theorem at3_arg0 (c : Dev nD) : W3 m ρ c (Proc.devRef .tc main_arg0) = m ((c : Thread nD τ).loc main_arg0) := (W3_of_ne m ρ c main_arg0 (by decide)).trans (at2_arg0 m ρ c)
theorem at4_arg0 (c : Dev nD) : W4 m ρ c (Proc.devRef .tc main_arg0) = m ((c : Thread nD τ).loc main_arg0) :=
  (StableHlo.after_of_forall_not_mem (b := Proc.devRef .tc main_arg0) _ _ (by not_written hostOps2)).trans (at3_arg0 m ρ c)
theorem at5_arg0 (c : Dev nD) : W5 m ρ c (Proc.devRef .tc main_arg0) = m ((c : Thread nD τ).loc main_arg0) := (W5_of_ne m ρ c main_arg0 (by decide)).trans (at4_arg0 m ρ c)
theorem at6_arg0 (c : Dev nD) : W6 m ρ c (Proc.devRef .tc main_arg0) = m ((c : Thread nD τ).loc main_arg0) :=
  (StableHlo.after_of_forall_not_mem (b := Proc.devRef .tc main_arg0) _ _ (by not_written hostOps3)).trans (at5_arg0 m ρ c)

theorem at1_arg4 (c : Dev nD) : W1 m ρ c (Proc.devRef .tc main_arg4) = m ((c : Thread nD τ).loc main_arg4) := W1_of_ne m ρ c main_arg4 (by decide)
theorem at2_arg4 (c : Dev nD) : W2 m ρ c (Proc.devRef .tc main_arg4) = m ((c : Thread nD τ).loc main_arg4) :=
  (StableHlo.after_of_forall_not_mem (b := Proc.devRef .tc main_arg4) _ _ (by not_written hostOps1)).trans (at1_arg4 m ρ c)
theorem at3_arg4 (c : Dev nD) : W3 m ρ c (Proc.devRef .tc main_arg4) = m ((c : Thread nD τ).loc main_arg4) := (W3_of_ne m ρ c main_arg4 (by decide)).trans (at2_arg4 m ρ c)
theorem at4_arg4 (c : Dev nD) : W4 m ρ c (Proc.devRef .tc main_arg4) = m ((c : Thread nD τ).loc main_arg4) :=
  (StableHlo.after_of_forall_not_mem (b := Proc.devRef .tc main_arg4) _ _ (by not_written hostOps2)).trans (at3_arg4 m ρ c)
theorem at5_arg4 (c : Dev nD) : W5 m ρ c (Proc.devRef .tc main_arg4) = m ((c : Thread nD τ).loc main_arg4) := (W5_of_ne m ρ c main_arg4 (by decide)).trans (at4_arg4 m ρ c)

theorem at1_arg5 (c : Dev nD) : W1 m ρ c (Proc.devRef .tc main_arg5) = m ((c : Thread nD τ).loc main_arg5) := W1_of_ne m ρ c main_arg5 (by decide)
theorem at2_arg5 (c : Dev nD) : W2 m ρ c (Proc.devRef .tc main_arg5) = m ((c : Thread nD τ).loc main_arg5) :=
  (StableHlo.after_of_forall_not_mem (b := Proc.devRef .tc main_arg5) _ _ (by not_written hostOps1)).trans (at1_arg5 m ρ c)
theorem at3_arg5 (c : Dev nD) : W3 m ρ c (Proc.devRef .tc main_arg5) = m ((c : Thread nD τ).loc main_arg5) := (W3_of_ne m ρ c main_arg5 (by decide)).trans (at2_arg5 m ρ c)
theorem at4_arg5 (c : Dev nD) : W4 m ρ c (Proc.devRef .tc main_arg5) = m ((c : Thread nD τ).loc main_arg5) :=
  (StableHlo.after_of_forall_not_mem (b := Proc.devRef .tc main_arg5) _ _ (by not_written hostOps2)).trans (at3_arg5 m ρ c)
theorem at5_arg5 (c : Dev nD) : W5 m ρ c (Proc.devRef .tc main_arg5) = m ((c : Thread nD τ).loc main_arg5) := (W5_of_ne m ρ c main_arg5 (by decide)).trans (at4_arg5 m ρ c)

theorem at1_arg9 (c : Dev nD) : W1 m ρ c (Proc.devRef .tc main_arg9) = m ((c : Thread nD τ).loc main_arg9) := W1_of_ne m ρ c main_arg9 (by decide)
theorem at2_arg9 (c : Dev nD) : W2 m ρ c (Proc.devRef .tc main_arg9) = m ((c : Thread nD τ).loc main_arg9) :=
  (StableHlo.after_of_forall_not_mem (b := Proc.devRef .tc main_arg9) _ _ (by not_written hostOps1)).trans (at1_arg9 m ρ c)
theorem at3_arg9 (c : Dev nD) : W3 m ρ c (Proc.devRef .tc main_arg9) = m ((c : Thread nD τ).loc main_arg9) := (W3_of_ne m ρ c main_arg9 (by decide)).trans (at2_arg9 m ρ c)
theorem at4_arg9 (c : Dev nD) : W4 m ρ c (Proc.devRef .tc main_arg9) = m ((c : Thread nD τ).loc main_arg9) :=
  (StableHlo.after_of_forall_not_mem (b := Proc.devRef .tc main_arg9) _ _ (by not_written hostOps2)).trans (at3_arg9 m ρ c)
theorem at5_arg9 (c : Dev nD) : W5 m ρ c (Proc.devRef .tc main_arg9) = m ((c : Thread nD τ).loc main_arg9) := (W5_of_ne m ρ c main_arg9 (by decide)).trans (at4_arg9 m ρ c)
theorem at6_arg9 (c : Dev nD) : W6 m ρ c (Proc.devRef .tc main_arg9) = m ((c : Thread nD τ).loc main_arg9) :=
  (StableHlo.after_of_forall_not_mem (b := Proc.devRef .tc main_arg9) _ _ (by not_written hostOps3)).trans (at5_arg9 m ρ c)
theorem at7_arg9 (c : Dev nD) : W7 m ρ c (Proc.devRef .tc main_arg9) = m ((c : Thread nD τ).loc main_arg9) := (W7_of_ne m ρ c main_arg9 (by decide)).trans (at6_arg9 m ρ c)

/-! ## The hidden state: written by the first region, carried through both rounds -/

theorem inp1 (c : Dev nD) : W1 m ρ c (Proc.devRef .tc main_v0_0) = mm (m ((c : Thread nD τ).loc main_arg1)) (m ((c : Thread nD τ).loc main_arg2)) :=
  (W1_arr m ρ c 2).trans (BondInit.final2 (V0 m ρ) c)
theorem inp2 (c : Dev nD) : W2 m ρ c (Proc.devRef .tc main_v0_0) = mm (m ((c : Thread nD τ).loc main_arg1)) (m ((c : Thread nD τ).loc main_arg2)) :=
  (StableHlo.after_of_forall_not_mem (b := Proc.devRef .tc main_v0_0) _ _ (by not_written hostOps1)).trans (inp1 m ρ c)
theorem inp3 (c : Dev nD) : W3 m ρ c (Proc.devRef .tc main_v0_0) = mm (m ((c : Thread nD τ).loc main_arg1)) (m ((c : Thread nD τ).loc main_arg2)) :=
  ((W3_arr m ρ c 0).trans (((dat1 (V2 m ρ) c).arrAt_in 0 rfl _).trans (A_eq1 (V2 m ρ) c 0))).trans (inp2 m ρ c)
theorem inp4 (c : Dev nD) : W4 m ρ c (Proc.devRef .tc main_v0_0) = mm (m ((c : Thread nD τ).loc main_arg1)) (m ((c : Thread nD τ).loc main_arg2)) :=
  (StableHlo.after_of_forall_not_mem (b := Proc.devRef .tc main_v0_0) _ _ (by not_written hostOps2)).trans (inp3 m ρ c)

/-! ## The messages, round by round -/

/-- After the first region: the rectified initial hidden state. -/
theorem msg_1 (c : Dev nD) : W1 m ρ c (Proc.devRef .tc main_v0_1) = Cert.RefStages.msg0 (m ((c : Thread nD τ).loc main_arg1)) (m ((c : Thread nD τ).loc main_arg2)) :=
  (W1_arr m ρ c 3).trans (BondInit.final3 (V0 m ρ) c)

/-- The first host stretch: each bond's incoming sum, from the messages and the three tables as it finds them. -/
theorem in2 (c : Dev nD) : W2 m ρ c (Proc.devRef .tc main_v26)
    = msgIn (W1 m ρ c (Proc.devRef .tc main_v0_1)) (W1 m ρ c (Proc.devRef .tc main_arg6)) (W1 m ρ c (Proc.devRef .tc main_arg7)) (W1 m ρ c (Proc.devRef .tc main_arg8)) := by
  show StableHlo.after hostOps1 (W1 m ρ c) (Proc.devRef .tc main_v26) = _
  generalize W1 m ρ c = Wc
  dsimp only [hostOps1]
  after_results_simp
  rfl

/-- The second region: one round. -/
theorem msg_3 (c : Dev nD) : W3 m ρ c (Proc.devRef .tc main_v27)
    = step (W2 m ρ c (Proc.devRef .tc main_v0_0)) (W2 m ρ c (Proc.devRef .tc main_v26)) (W2 m ρ c (Proc.devRef .tc main_arg3)) :=
  (W3_arr m ρ c 3).trans (Round1.final (V2 m ρ) c)

theorem msg_3' (c : Dev nD) : W3 m ρ c (Proc.devRef .tc main_v27) = Cert.RefStages.msg1 (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) := by
  rw [msg_3, inp2, in2, msg_1, at1_arg6, at1_arg7, at1_arg8, at2_arg3]
  rfl

/-- The second host stretch: the incoming sums of the second round. -/
theorem in4 (c : Dev nD) : W4 m ρ c (Proc.devRef .tc main_v53)
    = msgIn (W3 m ρ c (Proc.devRef .tc main_v27)) (W3 m ρ c (Proc.devRef .tc main_arg6)) (W3 m ρ c (Proc.devRef .tc main_arg7)) (W3 m ρ c (Proc.devRef .tc main_arg8)) := by
  show StableHlo.after hostOps2 (W3 m ρ c) (Proc.devRef .tc main_v53) = _
  generalize W3 m ρ c = Wc
  dsimp only [hostOps2]
  after_results_simp
  rfl

/-- The third region: the second round. -/
theorem msg_5 (c : Dev nD) : W5 m ρ c (Proc.devRef .tc main_v54)
    = step (W4 m ρ c (Proc.devRef .tc main_v0_0)) (W4 m ρ c (Proc.devRef .tc main_v53)) (W4 m ρ c (Proc.devRef .tc main_arg3)) :=
  (W5_arr m ρ c 3).trans (Round2.final (V4 m ρ) c)

theorem msg_5' (c : Dev nD) : W5 m ρ c (Proc.devRef .tc main_v54) = Cert.RefStages.msg2 (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) := by
  rw [msg_5, inp4, in4, msg_3', at3_arg6, at3_arg7, at3_arg8, at4_arg3]
  rfl

/-! ## The atom layer and the readout -/

/-- The third host stretch: the per-atom aggregate, … -/
theorem agg6 (c : Dev nD) : W6 m ρ c (Proc.devRef .tc main_v63) = agg (W5 m ρ c (Proc.devRef .tc main_v54)) (W5 m ρ c (Proc.devRef .tc main_arg6)) := by
  show StableHlo.after hostOps3 (W5 m ρ c) (Proc.devRef .tc main_v63) = _
  generalize W5 m ρ c = Wc
  dsimp only [hostOps3]
  after_results_simp
  rfl

/-- … the first 133 rows of W_a, … -/
theorem top6 (c : Dev nD) : W6 m ρ c (Proc.devRef .tc main_v64)
    = extractStridedSlice S133x256 ![0, 0] (W5 m ρ c (Proc.devRef .tc main_arg4)) slices_S389x256_S133x256_0_0 := by
  show StableHlo.after hostOps3 (W5 m ρ c) (Proc.devRef .tc main_v64) = _
  generalize W5 m ρ c = Wc
  dsimp only [hostOps3]
  after_results_simp

/-- … its last 256 rows, … -/
theorem bot6 (c : Dev nD) : W6 m ρ c (Proc.devRef .tc main_v65)
    = extractStridedSlice S256x256 ![133, 0] (W5 m ρ c (Proc.devRef .tc main_arg4)) slices_S389x256_S256x256_133_0 := by
  show StableHlo.after hostOps3 (W5 m ρ c) (Proc.devRef .tc main_v65) = _
  generalize W5 m ρ c = Wc
  dsimp only [hostOps3]
  after_results_simp

/-- … and the bias as a one-row matrix. -/
theorem row6 (c : Dev nD) : W6 m ρ c (Proc.devRef .tc main_v66) = shapeCast S1x256 (W5 m ρ c (Proc.devRef .tc main_arg5)) shapeCasts_S256_S1x256 := by
  show StableHlo.after hostOps3 (W5 m ρ c) (Proc.devRef .tc main_v66) = _
  generalize W5 m ρ c = Wc
  dsimp only [hostOps3]
  after_results_simp
  rfl

/-- The fourth region: the atom layer. -/
theorem atom7 (c : Dev nD) : W7 m ρ c (Proc.devRef .tc main_v67)
    = atom (W6 m ρ c (Proc.devRef .tc main_arg0)) (W6 m ρ c (Proc.devRef .tc main_v63)) (W6 m ρ c (Proc.devRef .tc main_v64)) (W6 m ρ c (Proc.devRef .tc main_v65)) (W6 m ρ c (Proc.devRef .tc main_v66)) :=
  (W7_arr m ρ c 5).trans (AtomLayer.final (V6 m ρ) c)

theorem atom7' (c : Dev nD) : W7 m ρ c (Proc.devRef .tc main_v67)
    = Cert.RefStages.atomH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) slices_S389x256_S133x256_0_0 slices_S389x256_S256x256_133_0 shapeCasts_S256_S1x256 := by
  rw [atom7, at6_arg0, agg6, top6, bot6, row6, msg_5', at5_arg6, at5_arg4, at5_arg5]
  rfl

/-- The last host stretch: the per-molecule mean. -/
theorem out8 (c : Dev nD) : W8 m ρ c (Proc.devRef .tc main_v79) = readout (W7 m ρ c (Proc.devRef .tc main_v67)) (W7 m ρ c (Proc.devRef .tc main_arg9)) := by
  show StableHlo.after hostOps4 (W7 m ρ c) (Proc.devRef .tc main_v79) = _
  generalize W7 m ρ c = Wc
  dsimp only [hostOps4]
  after_results_simp
  rfl

/-- THE KERNEL PROGRAM'S RESULT is the network's function of the arguments. -/
theorem result_eq (c : Dev nD) : W8 m ρ c (Proc.devRef .tc main_v79)
    = Cert.RefStages.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) slices_S389x256_S133x256_0_0 slices_S389x256_S256x256_133_0 shapeCasts_S256_S1x256 := by
  rw [out8, atom7', at7_arg9]
  rfl

end Cert.KernelIdeal.Stages

end
-- ==== Proof.lean ====
/-
  The certificate of a bond-message-passing network (a directed message-passing neural network on molecular graphs)
  computed by four pipelined TensorCore kernels among host gathers and a segment mean, against its plain reference.

  Both programs compute, from atom and bond features, three index tables and a molecule index,

      inp  = f_bonds · W_i,                      msg₀ = relu inp,
      msgₖ₊₁ = relu (inp + msgIn(msgₖ) · W_m)     (two rounds),
      h    = relu ([f_atoms | agg(msg₂)] · W_a + b_a),
      out  = the per-molecule mean of h,

  where agg sums the messages of each atom's incoming bonds and msgIn subtracts from the aggregate at a bond's source
  atom the message of its reverse bond. The kernel program stores the messages in a narrower format, tiles each dense
  layer over blocks of rows, and computes the atom layer as f_atoms · W_a[:133] + agg · W_a[133:] + b_a instead of
  joining the two left factors. On the extended reals a change of format is the identity, a row block of a matrix
  product is the product of the row block, and a sum over the 389 joined columns regroups into the two partial sums —
  regroupings of finite sums only, so the equality holds for every input and the finiteness precondition is not used.

  The modules: LibBondLayers (the three dense layers index by index, in the kernel's and the host's spellings), HostGlue
  (the gathers, sums and the readout, named once and shared by both programs), RefStages (the reference stage by
  stage, and the network as one function G of the ten arguments), BondInit / MessageRound1 / MessageRound2 / AtomLayer
  (each region's output array after the region, as a whole-array function of the arrays it finds), KernelRun (the
  kernel program's run with its result buffer named) and KernelStages (the kernel program boundary by boundary, ending
  at G). The three frames are the generated ones; the kernel is its own idealization (no rewrite was made).
-/
import proofs.«139782_j41394894799199_2_alg».proof.Defs
import proofs.«139782_j41394894799199_2_alg».proof.Proof.Gen.Kernel
import proofs.«139782_j41394894799199_2_alg».proof.Proof.Gen.Kernel.Frame
import proofs.«139782_j41394894799199_2_alg».proof.Proof.Gen.KernelIdeal
import proofs.«139782_j41394894799199_2_alg».proof.Proof.Gen.KernelIdeal.Frame
import proofs.«139782_j41394894799199_2_alg».proof.Proof.Gen.ReferenceIdeal
import proofs.«139782_j41394894799199_2_alg».proof.Proof.Gen.ReferenceIdeal.Run
import proofs.«139782_j41394894799199_2_alg».proof.Proof.Gen.ReferenceIdeal.Read
import proofs.«139782_j41394894799199_2_alg».proof.Proof.Gen.Pre_finite_inputs
import proofs.«139782_j41394894799199_2_alg».proof.Proof.KernelRun
import proofs.«139782_j41394894799199_2_alg».proof.Proof.KernelStages
import proofs.«139782_j41394894799199_2_alg».proof.Proof.RefStages
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No rewrite was made: nothing to preserve. -/
theorem preserves : Cert.preserves_Kernel_KernelIdeal := trivial

/-- Both programs end with the network's function G of the arguments in their result buffers. -/
theorem algebraic : Cert.algebraic_KernelIdeal_ReferenceIdeal := by
  intro m ρ m' ρ' _ hagree
  refine ⟨fun c => Cert.RefStages.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      Cert.KernelIdeal.Gen.slices_S389x256_S133x256_0_0 Cert.KernelIdeal.Gen.slices_S389x256_S256x256_133_0 Cert.KernelIdeal.Gen.shapeCasts_S256_S1x256, ?_, ?_⟩
  · exact (θ_run Cert.KernelIdeal.defs _ _).mono
      (fun r h c => ⟨(h c).1.trans (Cert.KernelIdeal.Stages.result_eq m ρ c), (h c).2⟩)
      (Cert.KernelIdeal.KRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v79_eq, h0, h1, h2, h3, h4, h5, h6, h7, h8, h9]
    exact Cert.RefStages.ref_eq _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
